-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x192 : Shape := ⟨2, ![1000000, 192]⟩
abbrev S1000000 : Shape := ⟨1, ![1000000]⟩
abbrev S192x64 : Shape := ⟨2, ![192, 64]⟩
abbrev S64 : Shape := ⟨1, ![64]⟩
abbrev S_ : Shape := ⟨0, ![]⟩

class Facts : Prop where
  bcast_S_S1000000x192 : S_.BroadcastsInDim S1000000x192 (![] : Fin 0 → Fin S1000000x192.rank)
  reducesTo_S1000000x192_S_d0_1 : S1000000x192.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1000000x192 .f32) (main_arg1 : IVec S1000000 32) (main_arg2 : IVec S1000000 32) (main_arg3 : FVec F S192x64 .f32) (main_arg4 : FVec F S64 .f32) (main_arg5 : FVec F S64 .f32) (main_arg6 : FVec F S64 .f32) : IVec S_ 1 :=
  let main_v0 : FVec F S1000000x192 .f32 := Host.absf main_arg0
  let main_cst : FVec F S_ .f32 := constant S_ .f32 0x7F800000#32
  let main_v1 : FVec F S1000000x192 .f32 := broadcastInDim S1000000x192 ![] bcast_S_S1000000x192 main_cst
  let main_v2 : IVec S1000000x192 1 := cmpf .olt main_v0 main_v1
  let main_c : IVec S_ 1 := constantI S_ 1 1#1
  let main_v3 : IVec S_ 1 := (fun x v => Host.reduce IntOp.andi x v reducesTo_S1000000x192_S_d0_1 h_S_) main_v2 main_c
  let main_v4 : FVec F S192x64 .f32 := Host.absf main_arg3
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S1000000x192 : Shape := ⟨2, ![1000000, 192]⟩
abbrev S1000000 : Shape := ⟨1, ![1000000]⟩
abbrev S192x64 : Shape := ⟨2, ![192, 64]⟩
abbrev S64 : Shape := ⟨1, ![64]⟩
abbrev S1x64 : Shape := ⟨2, ![1, 64]⟩
abbrev S1000000x64 : Shape := ⟨2, ![1000000, 64]⟩
abbrev S10000x192 : Shape := ⟨2, ![10000, 192]⟩
abbrev S10000x64 : Shape := ⟨2, ![10000, 64]⟩
abbrev S_ : Shape := ⟨0, ![]⟩
abbrev S50000x64 : Shape := ⟨2, ![50000, 64]⟩
abbrev S1000000x1 : Shape := ⟨2, ![1000000, 1]⟩
abbrev S50000 : Shape := ⟨1, ![50000]⟩
abbrev S50000x1 : Shape := ⟨2, ![50000, 1]⟩
abbrev S1000000x128 : Shape := ⟨2, ![1000000, 128]⟩
abbrev S10000x128 : Shape := ⟨2, ![10000, 128]⟩

abbrev nBuf : Space → Nat
  | .hbm => 57
  | .vmem => 20
  | .smem => 0
  | _ => 0

abbrev bufTy : (tb : Table) → Fin (tcTables nBuf tb) → BufTy
  | .hbm, ⟨0, _⟩ => ⟨S1000000x192, .f32⟩
  | .hbm, ⟨1, _⟩ => ⟨S1000000, .i32⟩
  | .hbm, ⟨2, _⟩ => ⟨S1000000, .i32⟩
  | .hbm, ⟨3, _⟩ => ⟨S192x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S1000000x64, .f32⟩
  | .hbm, ⟨9, _⟩ => ⟨S1x64, .f32⟩
  | .hbm, ⟨10, _⟩ => ⟨S1x64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S1x64, .f32⟩
  | .hbm, ⟨30, _⟩ => ⟨S1000000x64, .f32⟩
  | .hbm, ⟨31, _⟩ => ⟨S_, .f32⟩
  | .hbm, ⟨32, _⟩ => ⟨S50000x64, .f32⟩
  | .hbm, ⟨33, _⟩ => ⟨S1000000x1, .i32⟩
  | .hbm, ⟨34, _⟩ => ⟨S50000x64, .f32⟩
  | .hbm, ⟨35, _⟩ => ⟨S_, .f32⟩
  | .hbm, ⟨36, _⟩ => ⟨S1000000, .f32⟩
  | .hbm, ⟨37, _⟩ => ⟨S_, .f32⟩
  | .hbm, ⟨38, _⟩ => ⟨S50000, .f32⟩
  | .hbm, ⟨39, _⟩ => ⟨S1000000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S1000000, .i32⟩
  | .hbm, ⟨49, _⟩ => ⟨S1000000, .i1⟩
  | .hbm, ⟨50, _⟩ => ⟨S_, .i32⟩
  | .hbm, ⟨51, _⟩ => ⟨S1000000, .i32⟩
  | .hbm, ⟨52, _⟩ => ⟨S1000000, .i32⟩
  | .hbm, ⟨53, _⟩ => ⟨S1000000, .i32⟩
  | .hbm, ⟨54, _⟩ => ⟨S1000000x1, .i32⟩
  | .hbm, ⟨55, _⟩ => ⟨S1000000x64, .f32⟩
  | .hbm, ⟨56, _⟩ => ⟨S1000000x128, .f32⟩
  | .local _ .vmem, ⟨0, _⟩ => ⟨S10000x192, .f32⟩
  | .local _ .vmem, ⟨1, _⟩ => ⟨S10000x192, .f32⟩
  | .local _ .vmem, ⟨2, _⟩ => ⟨S192x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S1x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x128, .f32⟩
  | .local _ .vmem, ⟨19, _⟩ => ⟨S10000x128, .f32⟩
  | _, _ => ⟨S1000000x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x192_S10000x192_0_0 : ∀ a, (![0, 0] : Fin 2 → Nat) a + S10000x192.size a ≤ S10000x192.size a
  h_S10000x192 : 0 < S10000x192.numel
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  reduces_S10000x64_S64 : S10000x64.Reduces [0] S64
  shapeCasts_S1x64_S64 : S1x64.ShapeCasts S64
  bcast_S_S64 : S_.BroadcastsInDim S64 (![] : Fin 0 → Fin S64.rank)
  shapeCasts_S10000x64_S10000x64 : S10000x64.ShapeCasts S10000x64
  bcast_S_S50000x64 : S_.BroadcastsInDim S50000x64 (![] : Fin 0 → Fin S50000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S10000x64_S10000x64_S10000x128_d1 : Shape.Concatenates [S10000x64, S10000x64] S10000x128 1
  inb_S10000x128_S10000x128_0_0 : ∀ a, (![0, 0] : Fin 2 → Nat) a + S10000x128.size a ≤ S10000x128.size a
  h_S10000x128 : 0 < S10000x128.numel
  dot_S10000x192_S192x64_S10000x64_1_0_0_1_n_n_wf : DotDims.WF S10000x192 S192x64 S10000x64 [1] [0] [0] [1] [] []
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  gather_S50000x64_S1000000x1_S1000000x64_1_0_n_n_0_1_164_wf : GatherDims.WF S50000x64 S1000000x1 S1000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x192.size a ≤ S1000000x192.size a
  hwx0_0 : ∀ i : grid0.Coords, EltTy.bits .f32 = 32 ∨ (Rect.block (s := S1000000x192) S10000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S1000000x64.size a
  hwx0_3 : ∀ i : grid0.Coords, EltTy.bits .f32 = 32 ∨ (Rect.block (s := S1000000x64) S10000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S1000000x64.size a
  hwx1_3 : ∀ i : grid1.Coords, EltTy.bits .f32 = 32 ∨ (Rect.block (s := S1000000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S1000000x64.size a
  hwx2_1 : ∀ i : grid2.Coords, EltTy.bits .f32 = 32 ∨ (Rect.block (s := S1000000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S1000000x128.size a
  hwx2_2 : ∀ i : grid2.Coords, EltTy.bits .f32 = 32 ∨ (Rect.block (s := S1000000x128) S10000x128.size (cc2_transform_2 i) (hinb2_2 i)).WholeWords (EltTy.packing .f32)

variable [Facts₀]

def dot_S10000x192_S192x64_S10000x64_1_0_0_1_n_n : DotDims S10000x192 S192x64 S10000x64 where
  lhsContracting := [1]
  rhsContracting := [0]
  lhsNonContracting := [0]
  rhsNonContracting := [1]
  lhsBatch := []
  rhsBatch := []
  wf := dot_S10000x192_S192x64_S10000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf

abbrev win0_0 : Pipeline.Window sig grid0 :=
  Pipeline.Window.ofSpec (Memref.whole main_arg0) S10000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1000000x192 : Shape := ⟨2, ![1000000, 192]⟩
abbrev S1000000 : Shape := ⟨1, ![1000000]⟩
abbrev S192x64 : Shape := ⟨2, ![192, 64]⟩
abbrev S64 : Shape := ⟨1, ![64]⟩
abbrev S1000000x64 : Shape := ⟨2, ![1000000, 64]⟩
abbrev S1x64 : Shape := ⟨2, ![1, 64]⟩
abbrev S_ : Shape := ⟨0, ![]⟩
abbrev S50000x64 : Shape := ⟨2, ![50000, 64]⟩
abbrev S1000000x1 : Shape := ⟨2, ![1000000, 1]⟩
abbrev S50000 : Shape := ⟨1, ![50000]⟩
abbrev S50000x1 : Shape := ⟨2, ![50000, 1]⟩
abbrev S1000000x128 : Shape := ⟨2, ![1000000, 128]⟩

abbrev nBuf : Space → Nat
  | .hbm => 84
  | .vmem => 0
  | .smem => 0
  | _ => 0

abbrev bufTy : (tb : Table) → Fin (tcTables nBuf tb) → BufTy
  | .hbm, ⟨0, _⟩ => ⟨S1000000x192, .f32⟩
  | .hbm, ⟨1, _⟩ => ⟨S1000000, .i32⟩
  | .hbm, ⟨2, _⟩ => ⟨S1000000, .i32⟩
  | .hbm, ⟨3, _⟩ => ⟨S192x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1000000x64, .f32⟩
  | .hbm, ⟨8, _⟩ => ⟨S1x64, .f32⟩
  | .hbm, ⟨9, _⟩ => ⟨S1000000x64, .f32⟩
  | .hbm, ⟨10, _⟩ => ⟨S1000000x64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .i32⟩
  | .hbm, ⟨17, _⟩ => ⟨S_, .f32⟩
  | .hbm, ⟨18, _⟩ => ⟨S64, .f32⟩
  | .hbm, ⟨19, _⟩ => ⟨S1x64, .f32⟩
  | .hbm, ⟨20, _⟩ => ⟨S_, .f32⟩
  | .hbm, ⟨21, _⟩ => ⟨S1x64, .f32⟩
  | .hbm, ⟨22, _⟩ => ⟨S1x64, .f32⟩
  | .hbm, ⟨23, _⟩ => ⟨S1000000x64, .f32⟩
  | .hbm, ⟨24, _⟩ => ⟨S1000000x64, .f32⟩
  | .hbm, ⟨25, _⟩ => ⟨S1000000x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S1000000x64, .f32⟩
  | .hbm, ⟨41, _⟩ => ⟨S1000000x64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S1x64, .f32⟩
  | .hbm, ⟨47, _⟩ => ⟨S1000000x64, .f32⟩
  | .hbm, ⟨48, _⟩ => ⟨S1000000x64, .f32⟩
  | .hbm, ⟨49, _⟩ => ⟨S1x64, .f32⟩
  | .hbm, ⟨50, _⟩ => ⟨S1000000x64, .f32⟩
  | .hbm, ⟨51, _⟩ => ⟨S1000000x64, .f32⟩
  | .hbm, ⟨52, _⟩ => ⟨S1x64, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S1000000x64, .f32⟩
  | .hbm, ⟨57, _⟩ => ⟨S1000000x64, .f32⟩
  | .hbm, ⟨58, _⟩ => ⟨S_, .f32⟩
  | .hbm, ⟨59, _⟩ => ⟨S50000x64, .f32⟩
  | .hbm, ⟨60, _⟩ => ⟨S1000000x1, .i32⟩
  | .hbm, ⟨61, _⟩ => ⟨S50000x64, .f32⟩
  | .hbm, ⟨62, _⟩ => ⟨S_, .f32⟩
  | .hbm, ⟨63, _⟩ => ⟨S1000000, .f32⟩
  | .hbm, ⟨64, _⟩ => ⟨S_, .f32⟩
  | .hbm, ⟨65, _⟩ => ⟨S50000, .f32⟩
  | .hbm, ⟨66, _⟩ => ⟨S1000000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S_, .i32⟩
  | .hbm, ⟨75, _⟩ => ⟨S1000000, .i32⟩
  | .hbm, ⟨76, _⟩ => ⟨S1000000, .i1⟩
  | .hbm, ⟨77, _⟩ => ⟨S_, .i32⟩
  | .hbm, ⟨78, _⟩ => ⟨S1000000, .i32⟩
  | .hbm, ⟨79, _⟩ => ⟨S1000000, .i32⟩
  | .hbm, ⟨80, _⟩ => ⟨S1000000, .i32⟩
  | .hbm, ⟨81, _⟩ => ⟨S1000000x1, .i32⟩
  | .hbm, ⟨82, _⟩ => ⟨S1000000x64, .f32⟩
  | .hbm, ⟨83, _⟩ => ⟨S1000000x128, .f32⟩
  | _, _ => ⟨S1000000x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_cst_3 : Ref sig .tc := ⟨.hbm, 33, rfl⟩
abbrev main_call0_v12 : Ref sig .tc := ⟨.hbm, 34, rfl⟩
abbrev main_call0_cst_4 : Ref sig .tc := ⟨.hbm, 35, rfl⟩
abbrev main_call0_call0_v0 : Ref sig .tc := ⟨.hbm, 36, rfl⟩
abbrev main_call0_call0_v1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_cst : Ref sig .tc := ⟨.hbm, 55, rfl⟩
abbrev main_call1_v0 : Ref sig .tc := ⟨.hbm, 56, rfl⟩
abbrev main_v23 : Ref sig .tc := ⟨.hbm, 57, rfl⟩
abbrev main_cst_2 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_cst_4 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_6 : Ref sig .tc := ⟨.hbm, 74, rfl⟩
abbrev main_v36 : Ref sig .tc := ⟨.hbm, 75, rfl⟩
abbrev main_v37 : Ref sig .tc := ⟨.hbm, 76, rfl⟩
abbrev main_c_7 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S64_d0 : S1000000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S1000000x64 : S_.BroadcastsInDim S1000000x64 (![] : Fin 0 → Fin S1000000x64.rank)
  bcast_S_S50000x64 : S_.BroadcastsInDim S50000x64 (![] : Fin 0 → Fin S50000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S1000000x64_S1000000x64_S1000000x128_d1 : Shape.Concatenates [S1000000x64, S1000000x64] S1000000x128 1
  dot_S1000000x192_S192x64_S1000000x64_1_0_0_1_n_n_wf : DotDims.WF S1000000x192 S192x64 S1000000x64 [1] [0] [0] [1] [] []
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  gather_S50000x64_S1000000x1_S1000000x64_1_0_n_n_0_1_164_wf : GatherDims.WF S50000x64 S1000000x1 S1000000x64 [1] [0] [] [0] [] 1 ![1, 64]

variable [Facts₀]

def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf

class Facts : Prop extends Facts₀ where

variable [Facts]
-- ==== Proof.KRun.lean ====
/-
  The run of the three-region program with its RESULT named: every weakly fair execution terminates, nothing
  faults, the seven argument arrays end as launched, and the result array ends at the contents the last region's
  write-backs leave — the fold of the program's six segments (three stretches of host operations, three regions)
  from the launch memory, read at the result's buffer.
-/
import proofs.«114109_j88794153877507_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, the result array read at the last segment boundary's contents. -/
theorem run_main : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KValue

end
-- ==== Proof.Spec.lean ====
/-
  The common specification of this certificate, over the extended reals, index by index.

  The layer is: a linear map  h = x·W + b  on N = 1 000 000 rows (192 inputs, 64 outputs); a batch normalisation of
  every column of h by that column's mean and (biased) variance over all the rows, with an affine (γ, β), followed by
  the rectifier; a pooled table computed from the rectified values; and the two [N, 64] halves joined along the columns.

  Two arrangements of the normalisation are stated. One computes, per column q, the sums  S₁ = Σₚ h p q  and
  S₂ = Σₚ (h p q)²,  the mean S₁/N, the variance  S₂/N − mean²,  folds everything into an affine map
  scale = γ·rsqrt(var + ε),  shift = β − mean·scale,  and applies  max(h·scale + shift, 0).  The other centres first:
  var = Σₚ (h p q − mean)² / N  and  max((h − mean)·rsqrt(var + ε)·γ + β, 0).  Over real entries the two agree, because
  E[h²] − E[h]² = E[(h − E h)²]  and the products distribute; on the extended reals they need not (∞ − ∞), which is where
  the finiteness of the inputs is used.
-/
import Idealize.ShloMosaic.PureOps.Ideal
import Idealize.ShloMosaic.PureOps.Ideal.Laws
import Idealize.ShloMosaic.Lib.ValueIdx

noncomputable section

namespace Cert.Spec

open Idealize.ShloMosaic

/-- The number of rows, as the f32 constant both programs divide by (the pattern of 1.0e6). -/
def cN : EReal := Ideal.ofBits .f32 0x49742400#32
/-- The variance guard ε, as the f32 constant both programs add (the pattern nearest 1.0e-5). -/
def cEps : EReal := Ideal.ofBits .f32 0x3727C5AC#32

/-- The linear layer: row p of x times column q of W, plus the bias. -/
def lin (x : Fin 1000000 → Fin 192 → EReal) (W : Fin 192 → Fin 64 → EReal) (b : Fin 64 → EReal)
    (p : Fin 1000000) (q : Fin 64) : EReal :=
  (∑ j : Fin 192, x p j * W j q) + b q

/-- Column q's sum over all the rows. -/
def s1 (h : Fin 1000000 → Fin 64 → EReal) (q : Fin 64) : EReal := ∑ p : Fin 1000000, h p q
/-- Column q's sum of squares over all the rows. -/
def s2 (h : Fin 1000000 → Fin 64 → EReal) (q : Fin 64) : EReal := ∑ p : Fin 1000000, h p q * h p q

/-- Column q's mean. -/
def mean (h : Fin 1000000 → Fin 64 → EReal) (q : Fin 64) : EReal := Ideal.div (s1 h q) cN

/-! ### The arrangement through the two sums and an affine map -/

/-- The variance as mean of squares minus squared mean. -/
def varS (h : Fin 1000000 → Fin 64 → EReal) (q : Fin 64) : EReal := Ideal.div (s2 h q) cN - mean h q * mean h q
/-- The folded scale γ·rsqrt(var + ε). -/
def scaleS (h : Fin 1000000 → Fin 64 → EReal) (γ : Fin 64 → EReal) (q : Fin 64) : EReal :=
  γ q * Ideal.rsqrt (varS h q + cEps)
/-- The folded shift β − mean·scale. -/
def shiftS (h : Fin 1000000 → Fin 64 → EReal) (γ β : Fin 64 → EReal) (q : Fin 64) : EReal :=
  β q - mean h q * scaleS h γ q
/-- Normalised and rectified, through the affine map. -/
def bnS (h : Fin 1000000 → Fin 64 → EReal) (γ β : Fin 64 → EReal) (p : Fin 1000000) (q : Fin 64) : EReal :=
  max (h p q * scaleS h γ q + shiftS h γ β q) 0

/-! ### The arrangement that centres first -/

/-- The variance as the mean of the squared centred entries. -/
def varC (h : Fin 1000000 → Fin 64 → EReal) (q : Fin 64) : EReal :=
  Ideal.div (∑ p : Fin 1000000, (h p q - mean h q) * (h p q - mean h q)) cN
/-- Normalised and rectified, centring first. -/
def bnC (h : Fin 1000000 → Fin 64 → EReal) (γ β : Fin 64 → EReal) (p : Fin 1000000) (q : Fin 64) : EReal :=
  max ((h p q - mean h q) * Ideal.rsqrt (varC h q + cEps) * γ q + β q) 0

/-! ### Arrays from coordinates, and the two halves joined -/

/-- A matrix given by coordinates, as an array over the shape's indices. -/
def arr {a b : Nat} (f : Fin a → Fin b → EReal) : (⟨2, ![a, b]⟩ : Shape).Idx → EReal := fun i => f (i 0) (i 1)

theorem arr_ix2 {a b : Nat} (f : Fin a → Fin b → EReal) (p : Fin a) (q : Fin b) : arr f (ValueIdx.ix2 p q) = f p q := rfl

/-- The result: columns 0–63 are the rectified values, columns 64–127 the pooled table's rows. -/
def joined (hf pooled : (⟨2, ![1000000, 64]⟩ : Shape).Idx → EReal) : (⟨2, ![1000000, 128]⟩ : Shape).Idx → EReal :=
  fun i => if h : (i 1).val < 64 then hf (ValueIdx.ix2 (i 0) ⟨(i 1).val, h⟩)
    else pooled (ValueIdx.ix2 (i 0) ⟨(i 1).val - 64, by have := (i 1).isLt; change (i 1).val < 128 at this; omega⟩)

end Cert.Spec

end
-- ==== Proof.AffineDefs.lean ====
/-
  The host's epilogue between the first and the second kernel, as functions of the two running rows: from the row of
  column sums and the row of column sums of squares it forms the column means, the variances (mean of squares minus
  squared mean), the folded scale γ·rsqrt(var + ε) and the folded shift β − mean·scale.
-/
import proofs.«114109_j88794153877507_1_alg».proof.Proof.Gen.KernelIdeal
import proofs.«114109_j88794153877507_1_alg».proof.Proof.Spec
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Facts₀ Idealize.ShloMosaic

/-- The column means, from the [1, 64] row of column sums. -/
def meanV (s1row : FVec Ideal S1x64 .f32) : FVec Ideal S64 .f32 :=
  Host.divf (shapeCast S64 s1row shapeCasts_S1x64_S64) (broadcastInDim S64 ![] bcast_S_S64 (constant S_ .f32 0x49742400#32))

/-- The folded scale, from the two running rows and γ. -/
def scaleV (s1row s2row : FVec Ideal S1x64 .f32) (γ : FVec Ideal S64 .f32) : FVec Ideal S64 .f32 :=
  mulf γ (Host.rsqrt (addf (subf (Host.divf (shapeCast S64 s2row shapeCasts_S1x64_S64)
      (broadcastInDim S64 ![] bcast_S_S64 (constant S_ .f32 0x49742400#32))) (mulf (meanV s1row) (meanV s1row)))
    (broadcastInDim S64 ![] bcast_S_S64 (constant S_ .f32 0x3727C5AC#32))))

/-- The folded shift, from the two running rows, γ and β. -/
def shiftV (s1row s2row : FVec Ideal S1x64 .f32) (γ β : FVec Ideal S64 .f32) : FVec Ideal S64 .f32 :=
  subf β (mulf (meanV s1row) (scaleV s1row s2row γ))

end Cert.KernelIdeal.KValue

end
-- ==== Proof.HostStretches.lean ====
import proofs.«114109_j88794153877507_1_alg».proof.Proof.Gen.KernelIdeal.Frame
import proofs.«114109_j88794153877507_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«114109_j88794153877507_1_alg».proof.Proof.AffineDefs
import Idealize.ShloMosaic.Lib.StableHlo.Run
set_option maxRecDepth 16384

noncomputable section

open Idealize.ShloMosaic Idealize.ShloMosaic.TcCoe Idealize.SL.Sem
open Idealize.ShloMosaic.Pipeline (Dat)

/-! # The three stretches of host operations between the kernels, read

Before the first kernel the bias is viewed as a [1, 64] row. Between the first and the second the two running rows
become the folded scale and shift rows. Between the second and the third the rectified values are pooled by segment
and gathered back per row — the same operations the reference applies, carried here as one function `tail` that is
never opened. Every other buffer a stretch does not write keeps its contents. -/

namespace Cert.KernelIdeal.KValue
open Cert.KernelIdeal Cert.KernelIdeal.Facts₀ Idealize.ShloMosaic.ValueIdx Idealize.ShloMosaic Idealize.ShloMosaic.StableHlo

/-- The pooled table gathered back per row: two segment sums (of the values and of ones), the maximum of the counts
    with one, the quotient, the wrap of negative segment numbers, and the gather. -/
def tail (hf : FVec Ideal S1000000x64 .f32) (idx : IVec S1000000 32) : FVec Ideal S1000000x64 .f32 :=
  Host.gather gather_S50000x64_S1000000x1_S1000000x64_1_0_n_n_0_1_164
    (Host.divf
      (Host.scatterAdd scatter_S50000x64_S1000000x1_S1000000x64_1_0_0_1
        (broadcastInDim S50000x64 ![] bcast_S_S50000x64 (constant S_ .f32 0x00000000#32))
        (broadcastInDim S1000000x1 ![0] bcast_S1000000_S1000000x1_0 idx) hf)
      (broadcastInDim S50000x64 ![0, 1] bcast_S50000x1_S50000x64_0_1
        (broadcastInDim S50000x1 ![0] bcast_S50000_S50000x1_0
          (maximumf
            (Host.scatterAdd scatter_S50000_S1000000x1_S1000000_n_0_0_1
              (broadcastInDim S50000 ![] bcast_S_S50000 (constant S_ .f32 0x00000000#32))
              (broadcastInDim S1000000x1 ![0] bcast_S1000000_S1000000x1_0 idx)
              (broadcastInDim S1000000 ![] bcast_S_S1000000 (constant S_ .f32 0x3F800000#32)))
            (broadcastInDim S50000 ![] bcast_S_S50000 (constant S_ .f32 0x3F800000#32))))))
    (broadcastInDim S1000000x1 ![0] bcast_S1000000_S1000000x1_0
      (select (cmpi .slt idx (broadcastInDim S1000000 ![] bcast_S_S1000000 (constantI S_ 32 0#32)))
        (addi idx (broadcastInDim S1000000 ![] bcast_S_S1000000 (constantI S_ 32 50000#32))) idx))

variable (m : (ℓ : Loc nD τ sig) → Buf (Elt Ideal) ℓ) (ρ : Dev nD → PrngReg)

/-- A buffer none of a stretch's operations writes keeps its contents through the stretch. -/
local macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Before the first kernel -/

theorem V1_v0 (c : Dev nD) : Gen.V1 m ρ c main_v0 = shapeCast S1x64 (m ((c : Thread nD τ).loc main_arg4)) shapeCasts_S64_S1x64 := by
  show StableHlo.after Gen.hostOps0 (Gen.W0 m ρ c) (Proc.devRef .tc main_v0) = _
  after_results
  rfl

theorem W1_arg (c : Dev nD) (b : Ref sig .tc) (hb : b ≠ main_v0) : Gen.W1 m ρ c (Proc.devRef .tc b) = m ((c : Thread nD τ).loc b) := by
  show StableHlo.after Gen.hostOps0 (Gen.W0 m ρ c) (Proc.devRef .tc b) = _
  refine (StableHlo.after_of_forall_not_mem (b := Proc.devRef .tc b) _ _ (List.forall_iff_forall_mem.mp ?_)).trans rfl
  simp only [Gen.hostOps0, List.Forall, StableHlo.reshape_writes, Finset.mem_singleton]
  exact StableHlo.devRef_ne_of_ne hb

/-! ## Between the first and the second kernel -/

theorem W2_arg5 (c : Dev nD) : Gen.W2 m ρ c (Proc.devRef .tc main_arg5) = m ((c : Thread nD τ).loc main_arg5) :=
  (Gen.W2_of_ne m ρ c main_arg5 (by decide)).trans (W1_arg m ρ c main_arg5 (by decide))
theorem W2_arg6 (c : Dev nD) : Gen.W2 m ρ c (Proc.devRef .tc main_arg6) = m ((c : Thread nD τ).loc main_arg6) :=
  (Gen.W2_of_ne m ρ c main_arg6 (by decide)).trans (W1_arg m ρ c main_arg6 (by decide))

theorem V3_v16 (c : Dev nD) : Gen.V3 m ρ c main_v16
    = shapeCast S1x64 (scaleV (Gen.W2 m ρ c (Proc.devRef .tc main_v1_1)) (Gen.W2 m ρ c (Proc.devRef .tc main_v1_2))
        (Gen.W2 m ρ c (Proc.devRef .tc main_arg5))) shapeCasts_S64_S1x64 := by
  show StableHlo.after Gen.hostOps1 (Gen.W2 m ρ c) (Proc.devRef .tc main_v16) = _
  after_results
  rfl

theorem V3_v17 (c : Dev nD) : Gen.V3 m ρ c main_v17
    = shapeCast S1x64 (shiftV (Gen.W2 m ρ c (Proc.devRef .tc main_v1_1)) (Gen.W2 m ρ c (Proc.devRef .tc main_v1_2))
        (Gen.W2 m ρ c (Proc.devRef .tc main_arg5)) (Gen.W2 m ρ c (Proc.devRef .tc main_arg6))) shapeCasts_S64_S1x64 := by
  show StableHlo.after Gen.hostOps1 (Gen.W2 m ρ c) (Proc.devRef .tc main_v17) = _
  after_results
  rfl

theorem V3_v1_0 (c : Dev nD) : Gen.V3 m ρ c main_v1_0 = Gen.W2 m ρ c (Proc.devRef .tc main_v1_0) := by
  show StableHlo.after Gen.hostOps1 (Gen.W2 m ρ c) (Proc.devRef .tc main_v1_0) = _
  kept_by Gen.hostOps1

/-! ## Between the second and the third kernel -/

theorem W4_arg2 (c : Dev nD) : Gen.W4 m ρ c (Proc.devRef .tc main_arg2) = m ((c : Thread nD τ).loc main_arg2) := by
  refine (Gen.W4_of_ne m ρ c main_arg2 (by decide)).trans ?_
  refine Eq.trans ?_ ((Gen.W2_of_ne m ρ c main_arg2 (by decide)).trans (W1_arg m ρ c main_arg2 (by decide)))
  show StableHlo.after Gen.hostOps1 (Gen.W2 m ρ c) (Proc.devRef .tc main_arg2) = _
  kept_by Gen.hostOps1

set_option maxHeartbeats 1000000 in
theorem V5_v37 (c : Dev nD) : Gen.V5 m ρ c main_v37
    = tail (Gen.W4 m ρ c (Proc.devRef .tc main_v18)) (Gen.W4 m ρ c (Proc.devRef .tc main_arg2)) := by
  show StableHlo.after Gen.hostOps2 (Gen.W4 m ρ c) (Proc.devRef .tc main_v37) = _
  after_results_simp
  rfl

theorem V5_v18 (c : Dev nD) : Gen.V5 m ρ c main_v18 = Gen.W4 m ρ c (Proc.devRef .tc main_v18) := by
  show StableHlo.after Gen.hostOps2 (Gen.W4 m ρ c) (Proc.devRef .tc main_v18) = _
  kept_by Gen.hostOps2

end Cert.KernelIdeal.KValue

end
-- ==== Proof.Region0Pieces.lean ====
import proofs.«114109_j88794153877507_1_alg».proof.Proof.Gen.KernelIdeal.Frame
import proofs.«114109_j88794153877507_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

/-! # The first kernel's body, read as values

At a grid point the body holds a block of 10 000 rows of `x`, the whole `W`, the bias row, and two running rows.
It writes the block's linear layer `x·W + b`, and adds the block's column sums, and the column sums of its squares, to
the two running rows — which the first point starts from zero. What each case of the body leaves in each output's
staging buffer is one covering store; read back, it is that store's value. -/

namespace Cert.KernelIdeal.KValue
open Cert.KernelIdeal Cert.KernelIdeal.Gen

variable {F : FTy → Type} [FloatOps F]

theorem hz : (![0, 0] : Fin 2 → Nat) = fun _ => 0 := funext fun a => by fin_cases a <;> rfl

/-- A later point leaves the block's linear layer in the first output. -/
theorem out_B_3 (c : Dev nD) (i : grid0.Coords) (a1 : Memref sig .tc .vmem S10000x192 .f32) (h1 : a1.IsWhole)
    (a2 : Memref sig .tc .vmem S192x64 .f32) (h2 : a2.IsWhole) (a3 : Memref sig .tc .vmem S1x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : ¬cond0_0 i)
    (x0 : Vec F S10000x192 .f32) (x1 : Vec F S192x64 .f32) (x2 : Vec F S1x64 .f32) (xo4 xo5 : Vec F S1x64 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S10000x192) hz, View.ld_unit_zero (S := S192x64) hz, View.ld_unit_zero (S := S1x64) hz]

/-- A later point adds the block's column sums to the running row it found. -/
theorem out_B_4 (c : Dev nD) (i : grid0.Coords) (a1 : Memref sig .tc .vmem S10000x192 .f32) (h1 : a1.IsWhole)
    (a2 : Memref sig .tc .vmem S192x64 .f32) (h2 : a2.IsWhole) (a3 : Memref sig .tc .vmem S1x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : ¬cond0_0 i)
    (x0 : Vec F S10000x192 .f32) (x1 : Vec F S192x64 .f32) (x2 : Vec F S1x64 .f32) (xo4 xo5 : Vec F S1x64 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S10000x192) hz, View.ld_unit_zero (S := S192x64) hz, View.ld_unit_zero (S := S1x64) hz]

/-- A later point adds the column sums of the block's squares to the running row it found. -/
theorem out_B_5 (c : Dev nD) (i : grid0.Coords) (a1 : Memref sig .tc .vmem S10000x192 .f32) (h1 : a1.IsWhole)
    (a2 : Memref sig .tc .vmem S192x64 .f32) (h2 : a2.IsWhole) (a3 : Memref sig .tc .vmem S1x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : ¬cond0_0 i)
    (x0 : Vec F S10000x192 .f32) (x1 : Vec F S192x64 .f32) (x2 : Vec F S1x64 .f32) (xo4 xo5 : Vec F S1x64 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S10000x192) hz, View.ld_unit_zero (S := S192x64) hz, View.ld_unit_zero (S := S1x64) hz]

/-- The first point leaves the block's linear layer in the first output. -/
theorem out_A_3 (c : Dev nD) (i : grid0.Coords) (a1 : Memref sig .tc .vmem S10000x192 .f32) (h1 : a1.IsWhole)
    (a2 : Memref sig .tc .vmem S192x64 .f32) (h2 : a2.IsWhole) (a3 : Memref sig .tc .vmem S1x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : cond0_0 i)
    (x0 : Vec F S10000x192 .f32) (x1 : Vec F S192x64 .f32) (x2 : Vec F S1x64 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread,
    View.ld_unit_zero (S := S10000x192) hz, View.ld_unit_zero (S := S192x64) hz, View.ld_unit_zero (S := S1x64) hz]

/-- The first point stores the zero row, reads it back, and adds the block's column sums to it. -/
theorem out_A_4 (c : Dev nD) (i : grid0.Coords) (a1 : Memref sig .tc .vmem S10000x192 .f32) (h1 : a1.IsWhole)
    (a2 : Memref sig .tc .vmem S192x64 .f32) (h2 : a2.IsWhole) (a3 : Memref sig .tc .vmem S1x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : cond0_0 i)
    (x0 : Vec F S10000x192 .f32) (x1 : Vec F S192x64 .f32) (x2 : Vec F S1x64 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S10000x192) hz, View.ld_unit_zero (S := S192x64) hz, View.ld_unit_zero (S := S1x64) hz]

/-- The first point stores the zero row, reads it back, and adds the column sums of the block's squares to it. -/
theorem out_A_5 (c : Dev nD) (i : grid0.Coords) (a1 : Memref sig .tc .vmem S10000x192 .f32) (h1 : a1.IsWhole)
    (a2 : Memref sig .tc .vmem S192x64 .f32) (h2 : a2.IsWhole) (a3 : Memref sig .tc .vmem S1x64 .f32) (h3 : a3.IsWhole)
    (a4 : Memref sig .tc .vmem S10000x64 .f32) (h4 : a4.IsWhole) (a5 : Memref sig .tc .vmem S1x64 .f32) (h5 : a5.IsWhole)
    (a6 : Memref sig .tc .vmem S1x64 .f32) (h6 : a6.IsWhole) (hc : cond0_0 i)
    (x0 : Vec F S10000x192 .f32) (x1 : Vec F S192x64 .f32) (x2 : Vec F S1x64 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread,
    View.ld_unit_zero (S := S10000x192) hz, View.ld_unit_zero (S := S192x64) hz, View.ld_unit_zero (S := S1x64) hz]

end Cert.KernelIdeal.KValue

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Region0Pay.lean ====
import proofs.«114109_j88794153877507_1_alg».proof.Proof.Gen.KernelIdeal.Frame
import proofs.«114109_j88794153877507_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«114109_j88794153877507_1_alg».proof.Proof.Region0Pieces
import proofs.«114109_j88794153877507_1_alg».proof.Proof.LibMatmul
set_option maxRecDepth 16384

noncomputable section

open Idealize.ShloMosaic Idealize.ShloMosaic.TcCoe Idealize.SL.Sem
open Idealize.ShloMosaic.Pipeline (Dat)

/-! # The first kernel's values at an index, on the extended reals

Entry (r, q) of a block's linear layer is  Σⱼ x (r, j) · W (j, q) + b q  (the narrowing of the operands to bf16 is the
identity on the extended reals, and the matrix unit's accumulator starts at zero). The running rows gain, at column q,
the sum over the block's 10 000 rows of that entry, and of its square. -/

namespace Cert.KernelIdeal.KValue
open Cert.KernelIdeal Cert.KernelIdeal.Gen Idealize.ShloMosaic.ValueIdx

/-- The index the column reduction visits for column q at row r is (r, q). -/
theorem lift_col (q : Fin 64) (r : Fin 10000) :
    reduces_S10000x64_S64.lift (ix1 q) r = (ix2 r q : S10000x64.Idx) := by
  funext a
  apply Fin.ext
  match a with
  | ⟨0, _⟩ => rfl
  | ⟨1, _⟩ => rfl

/-- A reduction of a [10000, 64] block along its rows, at column q, is the sum of the column. -/
theorem colsum_apply (v : FVec Ideal S10000x64 .f32) (hφ : FKind.Formats .f32)
    (hacc : (0x00000000#32 : BitVec 32) = FKind.add.neutral .f32 hφ) (q : Fin 64) :
    multiReduction .add [0] S64 v 0x00000000#32 reduces_S10000x64_S64 hφ hacc (ix1 q) = ∑ r : Fin 10000, v (ix2 r q) :=
  (Ideal.multiReduction_add_single v 0x00000000#32 reduces_S10000x64_S64 hφ hacc (ix1 q)).trans
    (Finset.sum_congr rfl fun r _ => congrArg v (lift_col q r))

/-- Entry (r, q) of the block's linear layer. -/
theorem pay3_apply (x0 : FVec Ideal S10000x192 .f32) (x1 : FVec Ideal S192x64 .f32) (x2 : FVec Ideal S1x64 .f32)
    (r : Fin 10000) (q : Fin 64) :
    k0_pay3 (F := Ideal) x0 x1 x2 (ix2 r q) = (∑ j : Fin 192, x0 (ix2 r j) * x1 (ix2 j q)) + x2 (ix2 (0 : Fin 1) q) := by
  unfold k0_pay3
  show FloatOps.matmul dot_S10000x192_S192x64_S10000x64_1_0_0_1_n_n none (truncf .bf16 x0 bitsLt_bf16_f32)
      (truncf .bf16 x1 bitsLt_bf16_f32) (constant S10000x64 .f32 0x00000000#32) (ix2 r q)
    + broadcastTo S10000x64 (shapeCast S1x64 x2 shapeCasts_S1x64_S1x64) broadcasts_S1x64_S10000x64 (ix2 r q) = _
  rw [shapeCast_self, broadcastTo_1b_ab_apply, matmul_zero_ix2 _ rfl rfl rfl rfl rfl rfl]
  rfl

/-- The running row of sums after a point, at column q: what it held plus the block's column sum. -/
theorem pay4_apply (x0 : FVec Ideal S10000x192 .f32) (x1 : FVec Ideal S192x64 .f32) (x2 xo : FVec Ideal S1x64 .f32)
    (u : Fin 1) (q : Fin 64) :
    k0_pay4 (F := Ideal) x0 x1 x2 xo (ix2 u q) = xo (ix2 u q) + ∑ r : Fin 10000, k0_pay3 (F := Ideal) x0 x1 x2 (ix2 r q) := by
  unfold k0_pay4
  show shapeCast S1x64 xo shapeCasts_S1x64_S1x64 (ix2 u q)
    + shapeCast S1x64 (multiReduction .add [0] S64 (k0_pay3 (F := Ideal) x0 x1 x2) 0x00000000#32 reduces_S10000x64_S64 (.inl rfl) rfl)
        shapeCasts_S64_S1x64 (ix2 u q) = _
  rw [shapeCast_self, shapeCast_a_1a_apply]
  exact congrArg (xo (ix2 u q) + ·) (colsum_apply _ _ _ q)

/-- The running row of sums of squares after a point, at column q. -/
theorem pay5_apply (x0 : FVec Ideal S10000x192 .f32) (x1 : FVec Ideal S192x64 .f32) (x2 xo : FVec Ideal S1x64 .f32)
    (u : Fin 1) (q : Fin 64) :
    k0_pay5 (F := Ideal) x0 x1 x2 xo (ix2 u q)
      = xo (ix2 u q) + ∑ r : Fin 10000, k0_pay3 (F := Ideal) x0 x1 x2 (ix2 r q) * k0_pay3 (F := Ideal) x0 x1 x2 (ix2 r q) := by
  unfold k0_pay5
  show shapeCast S1x64 xo shapeCasts_S1x64_S1x64 (ix2 u q)
    + shapeCast S1x64 (multiReduction .add [0] S64 (mulf (k0_pay3 (F := Ideal) x0 x1 x2) (k0_pay3 (F := Ideal) x0 x1 x2)) 0x00000000#32
        reduces_S10000x64_S64 (.inl rfl) rfl) shapeCasts_S64_S1x64 (ix2 u q) = _
  rw [shapeCast_self, shapeCast_a_1a_apply]
  exact congrArg (xo (ix2 u q) + ·) (colsum_apply _ _ _ q)

/-- The rows the first point starts from are zero. -/
theorem pay1_apply (i : S1x64.Idx) : k0_pay1 (F := Ideal) i = 0 := by
  unfold k0_pay1
  show Ideal.ofBits .f32 0x00000000#32 = 0
  exact Ideal.ofBits_zero_f32

theorem pay2_apply (i : S1x64.Idx) : k0_pay2 (F := Ideal) i = 0 := by
  unfold k0_pay2
  show Ideal.ofBits .f32 0x00000000#32 = 0
  exact Ideal.ofBits_zero_f32

end Cert.KernelIdeal.KValue

end
-- ==== Proof.Region0Acc.lean ====
import proofs.«114109_j88794153877507_1_alg».proof.Proof.Gen.KernelIdeal.Frame
import proofs.«114109_j88794153877507_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«114109_j88794153877507_1_alg».proof.Proof.Region0Pay
set_option maxRecDepth 16384

noncomputable section

open Idealize.ShloMosaic Idealize.ShloMosaic.TcCoe Idealize.SL.Sem
open Idealize.ShloMosaic.Pipeline (Dat)

/-! # The first kernel over the whole grid: the running rows are sums over all the points

The first point resets the two running rows and every later point adds its block's column sums to what the point
before left, so after the last of the 100 points each row holds, at column q, the sum over the points of the block's
column sum: the library's fold of a reset-then-step recursion, unrolled at an index. -/

namespace Cert.KernelIdeal.KValue
open Cert.KernelIdeal Cert.KernelIdeal.Gen Idealize.ShloMosaic.ValueIdx Idealize.ShloMosaic

variable (V : (c : Dev nD) → (b : Ref sig .tc) → Buf (Elt Ideal) ((c : Thread nD τ).loc b))

/-- Entry (r, q) of the linear layer of the block at point `t`. -/
def blockLin (c : Dev nD) (t : Fin cfg0.N) (r : Fin 10000) (q : Fin 64) : EReal :=
  k0_pay3 (F := Ideal) (iblk0 V c 0 t) (iblk0 V c 1 t) (iblk0 V c 2 t) (ix2 r q)

/-- The first output's staging buffer after any point holds the block's linear layer. -/
theorem outs_lin (c : Dev nD) (t : Fin cfg0.N) :
    (outsAt0 V c t.val t.isLt).1 = k0_pay3 (F := Ideal) (iblk0 V c 0 t) (iblk0 V c 1 t) (iblk0 V c 2 t) := by
  by_cases h0 : t.val % 100 = 0
  · rw [outsAt0_A V c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun hc => h0 ((hcond0_0 t).mp hc)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2

/-- Running row of sums after point `n`. -/
def f4 (c : Dev nD) : (n : ℕ) → n < cfg0.N → S1x64.Idx → EReal := fun n h => (outsAt0 V c n h).2.1
/-- What the first point leaves in it: the zero row plus the block's contribution. -/
def a4 (c : Dev nD) : (n : ℕ) → n < cfg0.N → S1x64.Idx → EReal := fun n h =>
  k0_pay4 (F := Ideal) (iblk0 V c 0 ⟨n, h⟩) (iblk0 V c 1 ⟨n, h⟩) (iblk0 V c 2 ⟨n, h⟩) (k0_pay1 (F := Ideal))
/-- What a later point makes of the row it finds. -/
def g4 (c : Dev nD) : (n : ℕ) → n < cfg0.N → (S1x64.Idx → EReal) → S1x64.Idx → EReal := fun n h acc =>
  k0_pay4 (F := Ideal) (iblk0 V c 0 ⟨n, h⟩) (iblk0 V c 1 ⟨n, h⟩) (iblk0 V c 2 ⟨n, h⟩) acc
/-- Point `n`'s contribution at a column: the block's column sum (zero off the grid). -/
def M4 (c : Dev nD) (n : ℕ) (i : S1x64.Idx) : EReal :=
  if h : n < cfg0.N then ∑ r : Fin 10000, blockLin V c ⟨n, h⟩ r (i 1) else 0

theorem f4_reset (c : Dev nD) (n : ℕ) (h : n < cfg0.N) (h0 : n % 100 = 0) : f4 V c n h = a4 V c n h := by
  show (outsAt0 V c (⟨n, h⟩ : Fin cfg0.N).val (⟨n, h⟩ : Fin cfg0.N).isLt).2.1 = _
  rw [outsAt0_A V c ⟨n, h⟩ h0]
  dsimp only
  exact out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk0 V c 0 ⟨n, h⟩) (iblk0 V c 1 ⟨n, h⟩) (iblk0 V c 2 ⟨n, h⟩)

theorem f4_step (c : Dev nD) (n : ℕ) (h : n + 1 < cfg0.N) (h0 : ¬(n + 1) % 100 = 0) :
    f4 V c (n + 1) h = g4 V c (n + 1) h (f4 V c n (Nat.lt_of_succ_lt h)) := by
  show (outsAt0 V c (⟨n + 1, h⟩ : Fin cfg0.N).val (⟨n + 1, h⟩ : Fin cfg0.N).isLt).2.1 = _
  rw [outsAt0_B V c ⟨n + 1, h⟩ h0]
  dsimp only
  exact out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hc => h0 ((hcond0_0 ⟨n + 1, h⟩).mp hc)) (iblk0 V c 0 ⟨n + 1, h⟩) (iblk0 V c 1 ⟨n + 1, h⟩) (iblk0 V c 2 ⟨n + 1, h⟩)
    (outsAt0 V c n (Nat.lt_of_succ_lt h)).2.1 (outsAt0 V c n (Nat.lt_of_succ_lt h)).2.2

theorem a4_apply (c : Dev nD) (n : ℕ) (h : n < cfg0.N) (i : S1x64.Idx) : a4 V c n h i = 0 + M4 V c n i := by
  obtain ⟨u, q, rfl⟩ : ∃ (u : Fin 1) (q : Fin 64), i = ix2 u q := ⟨i 0, i 1, eq_ix2 i⟩
  unfold a4 M4
  rw [dif_pos h, pay4_apply, pay1_apply]
  rfl

theorem g4_apply (c : Dev nD) (n : ℕ) (h : n < cfg0.N) (acc : S1x64.Idx → EReal) (i : S1x64.Idx) :
    g4 V c n h acc i = acc i + M4 V c n i := by
  obtain ⟨u, q, rfl⟩ : ∃ (u : Fin 1) (q : Fin 64), i = ix2 u q := ⟨i 0, i 1, eq_ix2 i⟩
  unfold g4 M4
  rw [dif_pos h, pay4_apply]
  rfl

/-- After the last point the row holds the sum of all the points' contributions. -/
theorem f4_last (c : Dev nD) (h99 : 99 < cfg0.N) (i : S1x64.Idx) :
    f4 V c 99 h99 i = ∑ s ∈ Finset.range 100, M4 V c s i := by
  have e := Pipeline.eq_accAt (f4 V c) 100 (a4 V c) (g4 V c) (f4_reset V c) (f4_step V c) 0 99 (by norm_num) h99
  have e2 := Pipeline.accAt_add_apply (a4 V c) (g4 V c) (fun _ => (0 : EReal)) (M4 V c) (100 * 0) 99
    (fun h i => a4_apply V c _ h i) (fun n h acc i _ _ => g4_apply V c n h acc i) 99 le_rfl h99 i
  refine (congrFun e i).trans (e2.trans ?_)
  rw [zero_add]
  exact Finset.sum_congr rfl fun s _ => by rw [Nat.mul_zero, Nat.zero_add]

/-- Running row of sums of squares after point `n`. -/
def f5 (c : Dev nD) : (n : ℕ) → n < cfg0.N → S1x64.Idx → EReal := fun n h => (outsAt0 V c n h).2.2
/-- What the first point leaves in it: the zero row plus the block's contribution. -/
def a5 (c : Dev nD) : (n : ℕ) → n < cfg0.N → S1x64.Idx → EReal := fun n h =>
  k0_pay5 (F := Ideal) (iblk0 V c 0 ⟨n, h⟩) (iblk0 V c 1 ⟨n, h⟩) (iblk0 V c 2 ⟨n, h⟩) (k0_pay2 (F := Ideal))
/-- What a later point makes of the row it finds. -/
def g5 (c : Dev nD) : (n : ℕ) → n < cfg0.N → (S1x64.Idx → EReal) → S1x64.Idx → EReal := fun n h acc =>
  k0_pay5 (F := Ideal) (iblk0 V c 0 ⟨n, h⟩) (iblk0 V c 1 ⟨n, h⟩) (iblk0 V c 2 ⟨n, h⟩) acc
/-- Point `n`'s contribution at a column: the block's column sum of squares (zero off the grid). -/
def M5 (c : Dev nD) (n : ℕ) (i : S1x64.Idx) : EReal :=
  if h : n < cfg0.N then ∑ r : Fin 10000, blockLin V c ⟨n, h⟩ r (i 1) * blockLin V c ⟨n, h⟩ r (i 1) else 0

theorem f5_reset (c : Dev nD) (n : ℕ) (h : n < cfg0.N) (h0 : n % 100 = 0) : f5 V c n h = a5 V c n h := by
  show (outsAt0 V c (⟨n, h⟩ : Fin cfg0.N).val (⟨n, h⟩ : Fin cfg0.N).isLt).2.2 = _
  rw [outsAt0_A V c ⟨n, h⟩ h0]
  dsimp only
  exact out_A_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) ((hcond0_0 ⟨n, h⟩).mpr h0) (iblk0 V c 0 ⟨n, h⟩) (iblk0 V c 1 ⟨n, h⟩) (iblk0 V c 2 ⟨n, h⟩)

theorem f5_step (c : Dev nD) (n : ℕ) (h : n + 1 < cfg0.N) (h0 : ¬(n + 1) % 100 = 0) :
    f5 V c (n + 1) h = g5 V c (n + 1) h (f5 V c n (Nat.lt_of_succ_lt h)) := by
  show (outsAt0 V c (⟨n + 1, h⟩ : Fin cfg0.N).val (⟨n + 1, h⟩ : Fin cfg0.N).isLt).2.2 = _
  rw [outsAt0_B V c ⟨n + 1, h⟩ h0]
  dsimp only
  exact out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hc => h0 ((hcond0_0 ⟨n + 1, h⟩).mp hc)) (iblk0 V c 0 ⟨n + 1, h⟩) (iblk0 V c 1 ⟨n + 1, h⟩) (iblk0 V c 2 ⟨n + 1, h⟩)
    (outsAt0 V c n (Nat.lt_of_succ_lt h)).2.1 (outsAt0 V c n (Nat.lt_of_succ_lt h)).2.2

theorem a5_apply (c : Dev nD) (n : ℕ) (h : n < cfg0.N) (i : S1x64.Idx) : a5 V c n h i = 0 + M5 V c n i := by
  obtain ⟨u, q, rfl⟩ : ∃ (u : Fin 1) (q : Fin 64), i = ix2 u q := ⟨i 0, i 1, eq_ix2 i⟩
  unfold a5 M5
  rw [dif_pos h, pay5_apply, pay2_apply]
  rfl

theorem g5_apply (c : Dev nD) (n : ℕ) (h : n < cfg0.N) (acc : S1x64.Idx → EReal) (i : S1x64.Idx) :
    g5 V c n h acc i = acc i + M5 V c n i := by
  obtain ⟨u, q, rfl⟩ : ∃ (u : Fin 1) (q : Fin 64), i = ix2 u q := ⟨i 0, i 1, eq_ix2 i⟩
  unfold g5 M5
  rw [dif_pos h, pay5_apply]
  rfl

/-- After the last point the row holds the sum of all the points' contributions. -/
theorem f5_last (c : Dev nD) (h99 : 99 < cfg0.N) (i : S1x64.Idx) :
    f5 V c 99 h99 i = ∑ s ∈ Finset.range 100, M5 V c s i := by
  have e := Pipeline.eq_accAt (f5 V c) 100 (a5 V c) (g5 V c) (f5_reset V c) (f5_step V c) 0 99 (by norm_num) h99
  have e2 := Pipeline.accAt_add_apply (a5 V c) (g5 V c) (fun _ => (0 : EReal)) (M5 V c) (100 * 0) 99
    (fun h i => a5_apply V c _ h i) (fun n h acc i _ _ => g5_apply V c n h acc i) 99 le_rfl h99 i
  refine (congrFun e i).trans (e2.trans ?_)
  rw [zero_add]
  exact Finset.sum_congr rfl fun s _ => by rw [Nat.mul_zero, Nat.zero_add]

end Cert.KernelIdeal.KValue

end
-- ==== Proof.Region0Arr.lean ====
import proofs.«114109_j88794153877507_1_alg».proof.Proof.Gen.KernelIdeal.Frame
import proofs.«114109_j88794153877507_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«114109_j88794153877507_1_alg».proof.Proof.Region0Acc
set_option maxRecDepth 16384

noncomputable section

open Idealize.ShloMosaic Idealize.ShloMosaic.TcCoe Idealize.SL.Sem
open Idealize.ShloMosaic.Pipeline (Dat)

/-! # The first kernel's three result arrays

Point t holds rows 10000·t … 10000·t + 9999 of `x`, the whole `W` and the bias row, and writes the block's linear
layer back to the same rows of the first result: row p of that result is written by point p / 10000 and holds
Σⱼ x (p, j) · W (j, q) + b q.  The two running rows are written back once, after the last point, when each holds the
sum of all the points' contributions. -/

namespace Cert.KernelIdeal.KValue
open Cert.KernelIdeal Cert.KernelIdeal.Gen Idealize.ShloMosaic.ValueIdx Idealize.ShloMosaic

variable (V : (c : Dev nD) → (b : Ref sig .tc) → Buf (Elt Ideal) ((c : Thread nD τ).loc b))

/-- The linear layer of the arrays as the region finds them, at an index of the [1000000, 64] result. -/
def linOf (x : S1000000x192.Idx → EReal) (W : S192x64.Idx → EReal) (b2 : S1x64.Idx → EReal) : S1000000x64.Idx → EReal := fun i =>
  (∑ j : Fin 192, x (ix2 (i 0) j) * W (ix2 j (i 1))) + b2 (ix2 (0 : Fin 1) (i 1))

/-- The linear layer of the arrays as the region finds them. -/
def linV (c : Dev nD) : S1000000x64.Idx → EReal := linOf (V c main_arg0) (V c main_arg3) (V c main_v0)

/-- Where each window's block sits at a point (decided over the 100 points): `x` and the first result move down the
    rows with the point; `W`, the bias row and the two running rows stay. -/
theorem lin_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Entry (r, j) of the block of `x` at point t is entry (10000·t + r, j) of `x`. -/
theorem lin_x_apply (c : Dev nD) (t : Fin cfg0.N) (x : S10000x192.Idx) (k : S1000000x192.Idx)
    (hk0 : (k 0).val = t.val * 10000 + (x 0).val) (hk1 : (k 1).val = (x 1).val) :
    (iblk0 V c 0 t : Vec Ideal S10000x192 .f32) x = (V c main_arg0 : S1000000x192.Idx → EReal) k := by
  obtain ⟨e0, e1, -⟩ := lin_index_facts t
  unfold iblk0
  rw [View.read_apply]
  show V c main_arg0 _ = V c main_arg0 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 192 + 1 * (x 1).val = (k 1).val; rw [e1, hk1]; omega

/-- The block of `W` at any point is `W`. -/
theorem lin_w_apply (c : Dev nD) (t : Fin cfg0.N) (x k : S192x64.Idx)
    (hk0 : (k 0).val = (x 0).val) (hk1 : (k 1).val = (x 1).val) :
    (iblk0 V c 1 t : Vec Ideal S192x64 .f32) x = (V c main_arg3 : S192x64.Idx → EReal) k := by
  obtain ⟨-, -, e0, e1, -⟩ := lin_index_facts t
  unfold iblk0
  rw [View.read_apply]
  show V c main_arg3 _ = V c main_arg3 _
  congr 1
  funext a
  apply Fin.ext
  match a with
  | ⟨0, _⟩ => show win0_1.index t (0 : Fin 2) * 192 + 1 * (x 0).val = (k 0).val; rw [e0, hk0]; omega
  | ⟨1, _⟩ => show win0_1.index t (1 : Fin 2) * 64 + 1 * (x 1).val = (k 1).val; rw [e1, hk1]; omega

/-- The block of the bias row at any point is the bias row. -/
theorem lin_b_apply (c : Dev nD) (t : Fin cfg0.N) (x k : S1x64.Idx)
    (hk0 : (k 0).val = (x 0).val) (hk1 : (k 1).val = (x 1).val) :
    (iblk0 V c 2 t : Vec Ideal S1x64 .f32) x = (V c main_v0 : S1x64.Idx → EReal) k := by
  obtain ⟨-, -, -, -, e0, e1, -⟩ := lin_index_facts t
  unfold iblk0
  rw [View.read_apply]
  show V c main_v0 _ = V c main_v0 _
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 64 + 1 * (x 1).val = (k 1).val; rw [e1, hk1]; omega

/-- Entry (r, q) of the block's linear layer at point t is entry (10000·t + r, q) of the whole linear layer. -/
theorem blockLin_eq (c : Dev nD) (t : Fin cfg0.N) (r : Fin 10000) (q : Fin 64) (i : S1000000x64.Idx)
    (h0 : (i 0).val = t.val * 10000 + r.val) (h1 : (i 1).val = q.val) : blockLin V c t r q = linV V c i := by
  unfold blockLin
  refine (pay3_apply (iblk0 V c 0 t) (iblk0 V c 1 t) (iblk0 V c 2 t) r q).trans ?_
  unfold linV linOf
  refine congrArg₂ (fun a b : EReal => a + b) (Finset.sum_congr rfl fun j _ => congrArg₂ (fun a b : EReal => a * b)
    (lin_x_apply V c t (ix2 r j) (ix2 (i 0) j) h0 rfl) (lin_w_apply V c t (ix2 j q) (ix2 j (i 1)) rfl h1))
    (lin_b_apply V c t (ix2 (0 : Fin 1) q) (ix2 (0 : Fin 1) (i 1)) rfl h1)

/-! ## The first result: the linear layer, block by block -/

/-- What point t writes back to the first result is block t of the whole linear layer. -/
theorem lin_flushed_eq (c : Dev nD) (t : Fin cfg0.N) :
    (dat0 (F := Ideal) V c).flushed 3 t = ((cfg0.win 3).blk t).view.read (Elt Ideal) (linV V c) := by
  show (cfg0.win 3).cut (grid0.coords t) ((dat0 V c).after 3 t) = _
  rw [after0_3, outs_lin]
  obtain ⟨-, -, -, -, -, -, e0, e1, -⟩ := lin_index_facts t
  funext j
  show k0_pay3 (F := Ideal) (iblk0 V c 0 t) (iblk0 V c 1 t) (iblk0 V c 2 t) j = linV V c (((cfg0.win 3).blk t).view.emb j)
  refine (congrArg (k0_pay3 (F := Ideal) (iblk0 V c 0 t) (iblk0 V c 1 t) (iblk0 V c 2 t)) (eq_ix2 j)).trans ?_
  refine blockLin_eq V c t (j 0) (j 1) _ ?_ ?_
  · show win0_3.index t (0 : Fin 2) * 10000 + 1 * (j 0).val = t.val * 10000 + (j 0).val
    rw [e0]; omega
  · show win0_3.index t (1 : Fin 2) * 64 + 1 * (j 1).val = (j 1).val
    rw [e1]; omega

theorem lin_mem_blk (t : Fin cfg0.N) (i : S1000000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v1_0).slice (win0_3.rect t)).set ↔ _
  rw [View.set_slice_whole, Rect.mem_set_unit]
  exact Iff.rfl

theorem lin_index_onto : ∀ q : Fin 100, ∃ t : Fin cfg0.N, win0_3.index t = ![q.val, 0] :=
  (by decide +kernel : ∀ q : Fin 100, ∃ t : Fin grid0.N, win0_3.index t = ![q.val, 0])

/-- Row p of the first result is written by point p / 10000. -/
theorem lin_cover (i : S1000000x64.Idx) :
    ∃ t : Fin cfg0.N, (cfg0.win 3).flush t = true ∧ i ∈ ((cfg0.win 3).blk t).view.set := by
  have hi0 : (i 0).val < 1000000 := (i 0).isLt
  have hi1 : (i 1).val < 64 := (i 1).isLt
  obtain ⟨t, ht⟩ := lin_index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [lin_mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The first result ends holding the whole linear layer. -/
theorem final0_lin (c : Dev nD) : (dat0 (F := Ideal) V c).arrAt 3 cfg0.N = linV V c :=
  (dat0 (F := Ideal) V c).arrAt_eq_of_cover 3 (linV V c) (fun t _ => lin_flushed_eq V c t) lin_cover

end Cert.KernelIdeal.KValue

end
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.SumBlocks.lean ====
/-
  The sum over the 1 000 000 rows, block by block.

  Row p = 10000·s + r with s < 100 the row block and r < 10000 the row inside the block: the map (s, r) ↦ 10000·s + r
  is a bijection from pairs onto the rows, so a sum over all the rows is the sum over the 100 blocks of the sum over
  each block's 10 000 rows.
-/
import proofs.«114109_j88794153877507_1_alg».proof.Proof.LibRealEntries

namespace Cert.Spec

theorem sum_row_blocks {M : Type*} [AddCommMonoid M] (f : Fin 1000000 → M) :
    ∑ s ∈ Finset.range 100, (if h : s < 100 then ∑ r : Fin 10000, f ⟨10000 * s + r.val, by have := r.isLt; omega⟩ else 0)
      = ∑ p : Fin 1000000, f p := by
  have h : 100 * 10000 = 1000000 := by norm_num
  have e1 : ∑ p : Fin 1000000, f p = ∑ k : Fin (100 * 10000), f (finCongr h k) := ((finCongr h).sum_comp f).symm
  have e2 : ∑ k : Fin (100 * 10000), f (finCongr h k)
      = ∑ s : Fin 100, ∑ r : Fin 10000, f (finCongr h (finProdFinEquiv (s, r))) :=
    Cert.LibRealEntries.sum_fin_mul (m := 100) (n := 10000) (fun k => f (finCongr h k))
  rw [Finset.sum_range, e1, e2]
  refine Finset.sum_congr rfl fun s _ => ?_
  rw [dif_pos s.isLt]
  refine Finset.sum_congr rfl fun r _ => ?_
  refine congrArg f (Fin.ext ?_)
  rw [finCongr_apply_coe, finProdFinEquiv_apply_val]
  show 10000 * s.val + r.val = r.val + 10000 * s.val
  omega

end Cert.Spec
-- ==== Proof.Region0Rows.lean ====
/-
  The first kernel's two running rows read as whole arrays.

  The two [1, 64] rows stay in place over the whole grid and are written back once, after the last of the 100 points,
  when each holds, at column q, the sum over the points of that point's block column sum (of the linear layer, and of
  its squares).  Point s's block is rows 10000·s … 10000·s + 9999 of the linear layer, and every row p is
  10000·s + r for exactly one pair (s, r), so the row of sums holds  Σₚ lin p q  and the row of sums of squares holds
  Σₚ (lin p q)².
-/
import proofs.«114109_j88794153877507_1_alg».proof.Proof.Region0Arr
import proofs.«114109_j88794153877507_1_alg».proof.Proof.SumBlocks

set_option maxRecDepth 16384

noncomputable section

open Idealize.ShloMosaic Idealize.ShloMosaic.TcCoe Idealize.SL.Sem
open Idealize.ShloMosaic.Pipeline (Dat)

namespace Cert.KernelIdeal.KValue
open Cert.KernelIdeal Cert.KernelIdeal.Gen Idealize.ShloMosaic.ValueIdx Idealize.ShloMosaic

variable (V : (c : Dev nD) → (b : Ref sig .tc) → Buf (Elt Ideal) ((c : Thread nD τ).loc b))

/-- The last point of the grid of 100. -/
theorem rows_last_point : 99 < cfg0.N := by rw [show cfg0.N = 100 from N_0]; decide

/-- The row of sums after a point numbered 99 is the row after the last point. -/
theorem f4_at_last (c : Dev nD) (n : ℕ) (h : n < cfg0.N) (e : n = 99) : f4 V c n h = f4 V c 99 rows_last_point := by
  subst e; rfl

/-- The row of sums of squares after a point numbered 99 is the row after the last point. -/
theorem f5_at_last (c : Dev nD) (n : ℕ) (h : n < cfg0.N) (e : n = 99) : f5 V c n h = f5 V c 99 rows_last_point := by
  subst e; rfl

/-! ## The one write-back of each row -/

/-- The only point that writes the row of sums back is the last; it writes the whole row, in place. -/
theorem sum_flushed_eq (c : Dev nD) (t : Fin cfg0.N) (hf : (cfg0.win 4).flush t = true) :
    (dat0 (F := Ideal) V c).flushed 4 t
      = ((cfg0.win 4).blk t).view.read (Elt Ideal) (f4 V c 99 rows_last_point) := by
  have hN : cfg0.N = 100 := N_0
  have h99 : t.val = 99 := by have := (flush0_4 t).mp hf; have := t.isLt; omega
  show (cfg0.win 4).cut (grid0.coords t) ((dat0 V c).after 4 t) = _
  rw [after0_4]
  obtain ⟨-, -, -, -, -, -, -, -, e0, e1, -, -⟩ := lin_index_facts t
  funext j
  show f4 V c t.val t.isLt j = f4 V c 99 rows_last_point (((cfg0.win 4).blk t).view.emb j)
  refine (congrFun (f4_at_last V c t.val t.isLt h99) j).trans (congrArg (f4 V c 99 rows_last_point) ?_)
  funext a
  apply Fin.ext
  match a with
  | ⟨0, _⟩ => show (j 0).val = win0_4.index t (0 : Fin 2) * 1 + 1 * (j 0).val; rw [e0]; omega
  | ⟨1, _⟩ => show (j 1).val = win0_4.index t (1 : Fin 2) * 64 + 1 * (j 1).val; rw [e1]; omega

/-- The same for the row of sums of squares. -/
theorem sumsq_flushed_eq (c : Dev nD) (t : Fin cfg0.N) (hf : (cfg0.win 5).flush t = true) :
    (dat0 (F := Ideal) V c).flushed 5 t
      = ((cfg0.win 5).blk t).view.read (Elt Ideal) (f5 V c 99 rows_last_point) := by
  have hN : cfg0.N = 100 := N_0
  have h99 : t.val = 99 := by have := (flush0_5 t).mp hf; have := t.isLt; omega
  show (cfg0.win 5).cut (grid0.coords t) ((dat0 V c).after 5 t) = _
  rw [after0_5]
  obtain ⟨-, -, -, -, -, -, -, -, -, -, e0, e1⟩ := lin_index_facts t
  funext j
  show f5 V c t.val t.isLt j = f5 V c 99 rows_last_point (((cfg0.win 5).blk t).view.emb j)
  refine (congrFun (f5_at_last V c t.val t.isLt h99) j).trans (congrArg (f5 V c 99 rows_last_point) ?_)
  funext a
  apply Fin.ext
  match a with
  | ⟨0, _⟩ => show (j 0).val = win0_5.index t (0 : Fin 2) * 1 + 1 * (j 0).val; rw [e0]; omega
  | ⟨1, _⟩ => show (j 1).val = win0_5.index t (1 : Fin 2) * 64 + 1 * (j 1).val; rw [e1]; omega

/-- The last point's block of the row of sums is the whole row. -/
theorem sum_cover (i : S1x64.Idx) :
    ∃ t : Fin cfg0.N, (cfg0.win 4).flush t = true ∧ i ∈ ((cfg0.win 4).blk t).view.set := by
  have hi0 : (i 0).val < 1 := (i 0).isLt
  have hi1 : (i 1).val < 64 := (i 1).isLt
  obtain ⟨-, -, -, -, -, -, -, -, e0, e1, -, -⟩ := lin_index_facts (⟨99, rows_last_point⟩ : Fin cfg0.N)
  refine ⟨⟨99, rows_last_point⟩, (flush0_4 _).mpr rfl, ?_⟩
  show i ∈ ((View.whole main_v1_1).slice (win0_4.rect ⟨99, rows_last_point⟩)).set
  rw [View.set_slice_whole, Rect.mem_set_unit]
  intro a
  match a with
  | ⟨0, _⟩ => show win0_4.index ⟨99, rows_last_point⟩ (0 : Fin 2) * 1 ≤ (i 0).val ∧ (i 0).val < win0_4.index ⟨99, rows_last_point⟩ (0 : Fin 2) * 1 + 1; rw [e0]; omega
  | ⟨1, _⟩ => show win0_4.index ⟨99, rows_last_point⟩ (1 : Fin 2) * 64 ≤ (i 1).val ∧ (i 1).val < win0_4.index ⟨99, rows_last_point⟩ (1 : Fin 2) * 64 + 64; rw [e1]; omega

/-- The last point's block of the row of sums of squares is the whole row. -/
theorem sumsq_cover (i : S1x64.Idx) :
    ∃ t : Fin cfg0.N, (cfg0.win 5).flush t = true ∧ i ∈ ((cfg0.win 5).blk t).view.set := by
  have hi0 : (i 0).val < 1 := (i 0).isLt
  have hi1 : (i 1).val < 64 := (i 1).isLt
  obtain ⟨-, -, -, -, -, -, -, -, -, -, e0, e1⟩ := lin_index_facts (⟨99, rows_last_point⟩ : Fin cfg0.N)
  refine ⟨⟨99, rows_last_point⟩, (flush0_5 _).mpr rfl, ?_⟩
  show i ∈ ((View.whole main_v1_2).slice (win0_5.rect ⟨99, rows_last_point⟩)).set
  rw [View.set_slice_whole, Rect.mem_set_unit]
  intro a
  match a with
  | ⟨0, _⟩ => show win0_5.index ⟨99, rows_last_point⟩ (0 : Fin 2) * 1 ≤ (i 0).val ∧ (i 0).val < win0_5.index ⟨99, rows_last_point⟩ (0 : Fin 2) * 1 + 1; rw [e0]; omega
  | ⟨1, _⟩ => show win0_5.index ⟨99, rows_last_point⟩ (1 : Fin 2) * 64 ≤ (i 1).val ∧ (i 1).val < win0_5.index ⟨99, rows_last_point⟩ (1 : Fin 2) * 64 + 64; rw [e1]; omega

/-- The row of sums ends holding what the running row held after the last point. -/
theorem final0_sum_row (c : Dev nD) : (dat0 (F := Ideal) V c).arrAt 4 cfg0.N = f4 V c 99 rows_last_point :=
  (dat0 (F := Ideal) V c).arrAt_eq_of_cover 4 (f4 V c 99 rows_last_point) (sum_flushed_eq V c) sum_cover

/-- The row of sums of squares ends holding what the running row held after the last point. -/
theorem final0_sumsq_row (c : Dev nD) : (dat0 (F := Ideal) V c).arrAt 5 cfg0.N = f5 V c 99 rows_last_point :=
  (dat0 (F := Ideal) V c).arrAt_eq_of_cover 5 (f5 V c 99 rows_last_point) (sumsq_flushed_eq V c) sumsq_cover

/-! ## The sums over all the rows -/

/-- Point s's contribution to the row of sums at column q: the sum of the linear layer over rows 10000·s + r. -/
theorem M4_rows (c : Dev nD) (s : ℕ) (hs : s < 100) (q : Fin 64) :
    M4 V c s (ix2 (0 : Fin 1) q)
      = ∑ r : Fin 10000, linV V c (ix2 (⟨10000 * s + r.val, by have := r.isLt; omega⟩ : Fin 1000000) q) := by
  have hN : cfg0.N = 100 := N_0
  have h : s < cfg0.N := by rw [hN]; exact hs
  unfold M4
  rw [dif_pos h]
  refine Finset.sum_congr rfl fun r _ => ?_
  exact blockLin_eq V c ⟨s, h⟩ r q _ (by show 10000 * s + r.val = s * 10000 + r.val; omega) rfl

/-- Point s's contribution to the row of sums of squares at column q. -/
theorem M5_rows (c : Dev nD) (s : ℕ) (hs : s < 100) (q : Fin 64) :
    M5 V c s (ix2 (0 : Fin 1) q)
      = ∑ r : Fin 10000, linV V c (ix2 (⟨10000 * s + r.val, by have := r.isLt; omega⟩ : Fin 1000000) q)
          * linV V c (ix2 (⟨10000 * s + r.val, by have := r.isLt; omega⟩ : Fin 1000000) q) := by
  have hN : cfg0.N = 100 := N_0
  have h : s < cfg0.N := by rw [hN]; exact hs
  unfold M5
  rw [dif_pos h]
  refine Finset.sum_congr rfl fun r _ => ?_
  have e := blockLin_eq V c ⟨s, h⟩ r q
    (ix2 (⟨10000 * s + r.val, by have := r.isLt; omega⟩ : Fin 1000000) q)
    (by show 10000 * s + r.val = s * 10000 + r.val; omega) rfl
  exact congrArg₂ (fun a b : EReal => a * b) e e

/-- After the last point the running row of sums holds, at column q, the sum of the linear layer over all the rows. -/
theorem f4_total (c : Dev nD) (q : Fin 64) :
    f4 V c 99 rows_last_point (ix2 (0 : Fin 1) q) = ∑ p : Fin 1000000, linV V c (ix2 p q) := by
  rw [f4_last V c rows_last_point, ← Cert.Spec.sum_row_blocks (fun p => linV V c (ix2 p q))]
  refine Finset.sum_congr rfl fun s hs => ?_
  have hs' : s < 100 := Finset.mem_range.mp hs
  rw [dif_pos hs']
  exact M4_rows V c s hs' q

/-- After the last point the running row of sums of squares holds, at column q, the sum of the squares of the linear
    layer over all the rows. -/
theorem f5_total (c : Dev nD) (q : Fin 64) :
    f5 V c 99 rows_last_point (ix2 (0 : Fin 1) q)
      = ∑ p : Fin 1000000, linV V c (ix2 p q) * linV V c (ix2 p q) := by
  rw [f5_last V c rows_last_point,
    ← Cert.Spec.sum_row_blocks (fun p => linV V c (ix2 p q) * linV V c (ix2 p q))]
  refine Finset.sum_congr rfl fun s hs => ?_
  have hs' : s < 100 := Finset.mem_range.mp hs
  rw [dif_pos hs']
  exact M5_rows V c s hs' q

/-- THE ROW OF SUMS after the region: column q holds the sum of the linear layer over all the rows. -/
theorem final0_sum (c : Dev nD) (q : Fin 64) :
    ((dat0 (F := Ideal) V c).arrAt 4 cfg0.N : S1x64.Idx → EReal) (ix2 (0 : Fin 1) q)
      = ∑ p : Fin 1000000, linV V c (ix2 p q) :=
  (congrFun (final0_sum_row V c) (ix2 (0 : Fin 1) q)).trans (f4_total V c q)

/-- THE ROW OF SUMS OF SQUARES after the region: column q holds the sum of the squares of the linear layer over all
    the rows. -/
theorem final0_sumsq (c : Dev nD) (q : Fin 64) :
    ((dat0 (F := Ideal) V c).arrAt 5 cfg0.N : S1x64.Idx → EReal) (ix2 (0 : Fin 1) q)
      = ∑ p : Fin 1000000, linV V c (ix2 p q) * linV V c (ix2 p q) :=
  (congrFun (final0_sumsq_row V c) (ix2 (0 : Fin 1) q)).trans (f5_total V c q)

end Cert.KernelIdeal.KValue

end
-- ==== Proof.Region1.lean ====
/-
  The second kernel region read as a whole array: an affine map of every column, then the rectifier.

  Every grid point t (100 of them) stages rows 10000·t … 10000·t + 9999 of the [1000000, 64] input together with the
  whole [1, 64] scale and the whole [1, 64] shift, computes  max(x·scale + shift, 0)  entry by entry — the scale and the
  shift of column q are the same for every row — and writes the [10000, 64] block back to the same rows of the result.
  Row p of the result is therefore written by point p / 10000, and entry (p, q) is
  max(x p q · scale q + shift q, 0).
-/
import proofs.«114109_j88794153877507_1_alg».proof.Proof.Gen.KernelIdeal.Frame
import proofs.«114109_j88794153877507_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, as a constant function. -/
theorem zero_offsets_affine : (![0, 0] : Fin 2 → Nat) = fun _ => 0 := funext fun a => by fin_cases a <;> rfl

/-- The whole-array result: every entry scaled and shifted by its column's pair, then rectified. -/
def affineRelu (x : S1000000x64.Idx → EReal) (scale shift : S1x64.Idx → EReal) : S1000000x64.Idx → EReal :=
  fun i => max (x i * scale (ValueIdx.ix2 (0 : Fin 1) (i 1)) + shift (ValueIdx.ix2 (0 : Fin 1) (i 1))) (0 : EReal)

/-- The whole-array result at an index. -/
theorem affineRelu_apply (x : S1000000x64.Idx → EReal) (scale shift : S1x64.Idx → EReal) (i : S1000000x64.Idx) :
    affineRelu x scale shift i
      = max (x i * scale (ValueIdx.ix2 (0 : Fin 1) (i 1)) + shift (ValueIdx.ix2 (0 : Fin 1) (i 1))) (0 : EReal) := rfl

/-- The whole-array result at coordinates. -/
theorem affineRelu_ix2 (x : S1000000x64.Idx → EReal) (scale shift : S1x64.Idx → EReal) (p : Fin 1000000) (q : Fin 64) :
    affineRelu x scale shift (ValueIdx.ix2 p q)
      = max (x (ValueIdx.ix2 p q) * scale (ValueIdx.ix2 (0 : Fin 1) q) + shift (ValueIdx.ix2 (0 : Fin 1) q)) (0 : EReal) := rfl

/-! ## One block: the body's arithmetic at coordinates -/

/-- Entry (r, q) of the block the body stores. -/
theorem affine_block_apply (x0 : Vec Ideal S10000x64 .f32) (x1 x2 : Vec Ideal S1x64 .f32) (r : Fin 10000) (q : Fin 64) :
    k1_pay1 x0 x1 x2 (ValueIdx.ix2 r q)
      = max (x0 (ValueIdx.ix2 r q) * x1 (ValueIdx.ix2 (0 : Fin 1) q) + x2 (ValueIdx.ix2 (0 : Fin 1) q)) (0 : EReal) := by
  unfold k1_pay1
  simp only [shapeCast_self]
  rw [ValueIdx.maximumf_apply, ValueIdx.addf_apply, ValueIdx.mulf_apply, ValueIdx.broadcast_apply]
  rw [ValueIdx.broadcastTo_1b_ab_apply, ValueIdx.broadcastTo_1b_ab_apply]
  show max _ (Ideal.ofBits .f32 0x00000000#32) = _
  rw [Ideal.ofBits_zero_f32]

/-! ## Where a block sits in its array -/

/-- The input and the result move down the rows with the grid point at column block 0; the scale and the shift stay
    at block (0, 0) (decided over the 100 points). -/
theorem affine_index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (r, q) of the input's block at point t is entry (10000·t + r, q) of the input. -/
theorem affine_in0_apply (c : Dev nD) (t : Fin cfg1.N) (x : S10000x64.Idx) (k : S1000000x64.Idx)
    (hk0 : (k 0).val = t.val * 10000 + (x 0).val) (hk1 : (k 1).val = (x 1).val) :
    (iblk1 V c 0 t : Vec Ideal S10000x64 .f32) x = (V c main_v1_0 : S1000000x64.Idx → EReal) k := by
  obtain ⟨e0, e1, -, -, -, -, -, -⟩ := affine_index_facts t
  unfold iblk1
  rw [View.read_apply]
  show V c main_v1_0 _ = V c main_v1_0 _
  congr 1
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 64 + 1 * (x 1).val = (k 1).val; rw [e1, hk1]; omega

/-- The scale's block at any point is the scale. -/
theorem affine_in1_apply (c : Dev nD) (t : Fin cfg1.N) (x : S1x64.Idx) (k : S1x64.Idx)
    (hk0 : (k 0).val = (x 0).val) (hk1 : (k 1).val = (x 1).val) :
    (iblk1 V c 1 t : Vec Ideal S1x64 .f32) x = (V c main_v16 : S1x64.Idx → EReal) k := by
  obtain ⟨-, -, e0, e1, -, -, -, -⟩ := affine_index_facts t
  unfold iblk1
  rw [View.read_apply]
  show V c main_v16 _ = V c main_v16 _
  congr 1
  funext a
  apply Fin.ext
  match a with
  | ⟨0, _⟩ => show win1_1.index t (0 : Fin 2) * 1 + 1 * (x 0).val = (k 0).val; rw [e0, hk0]; omega
  | ⟨1, _⟩ => show win1_1.index t (1 : Fin 2) * 64 + 1 * (x 1).val = (k 1).val; rw [e1, hk1]; omega

/-- The shift's block at any point is the shift. -/
theorem affine_in2_apply (c : Dev nD) (t : Fin cfg1.N) (x : S1x64.Idx) (k : S1x64.Idx)
    (hk0 : (k 0).val = (x 0).val) (hk1 : (k 1).val = (x 1).val) :
    (iblk1 V c 2 t : Vec Ideal S1x64 .f32) x = (V c main_v17 : S1x64.Idx → EReal) k := by
  obtain ⟨-, -, -, -, e0, e1, -, -⟩ := affine_index_facts t
  unfold iblk1
  rw [View.read_apply]
  show V c main_v17 _ = V c main_v17 _
  congr 1
  funext a
  apply Fin.ext
  match a with
  | ⟨0, _⟩ => show win1_2.index t (0 : Fin 2) * 1 + 1 * (x 0).val = (k 0).val; rw [e0, hk0]; omega
  | ⟨1, _⟩ => show win1_2.index t (1 : Fin 2) * 64 + 1 * (x 1).val = (k 1).val; rw [e1, hk1]; omega

/-- The block point t stores, at (r, q), is the whole-array result at (10000·t + r, q). -/
theorem affine_point_apply (c : Dev nD) (t : Fin cfg1.N) (r : Fin 10000) (q : Fin 64) (i : S1000000x64.Idx)
    (h0 : (i 0).val = t.val * 10000 + r.val) (h1 : (i 1).val = q.val) :
    k1_pay1 (iblk1 V c 0 t) (iblk1 V c 1 t) (iblk1 V c 2 t) (ValueIdx.ix2 r q)
      = affineRelu (V c main_v1_0) (V c main_v16) (V c main_v17) i := by
  refine (affine_block_apply (iblk1 V c 0 t) (iblk1 V c 1 t) (iblk1 V c 2 t) r q).trans ?_
  have a0 := affine_in0_apply V c t (ValueIdx.ix2 r q) i h0 h1
  have a1 := affine_in1_apply V c t (ValueIdx.ix2 (0 : Fin 1) q) (ValueIdx.ix2 (0 : Fin 1) (i 1)) rfl h1
  have a2 := affine_in2_apply V c t (ValueIdx.ix2 (0 : Fin 1) q) (ValueIdx.ix2 (0 : Fin 1) (i 1)) rfl h1
  unfold affineRelu
  exact congrArg₂ max (congrArg₂ (· + ·) (congrArg₂ (· * ·) a0 a1) a2) rfl

/-- The same at an index of the block given whole. -/
theorem affine_point_apply_idx (c : Dev nD) (t : Fin cfg1.N) (j : S10000x64.Idx) (i : S1000000x64.Idx)
    (h0 : (i 0).val = t.val * 10000 + (j 0).val) (h1 : (i 1).val = (j 1).val) :
    k1_pay1 (iblk1 V c 0 t) (iblk1 V c 1 t) (iblk1 V c 2 t) j
      = affineRelu (V c main_v1_0) (V c main_v16) (V c main_v17) i :=
  (congrArg (k1_pay1 (iblk1 V c 0 t) (iblk1 V c 1 t) (iblk1 V c 2 t)) (ValueIdx.eq_ix2 j)).trans
    (affine_point_apply V c t (j 0) (j 1) i h0 h1)

/-! ## From the blocks to the array -/

/-- What point t writes back is block t of the whole-array result. -/
theorem affine_flushed_eq (c : Dev nD) (t : Fin cfg1.N) :
    (dat1 (F := Ideal) V c).flushed 3 t
      = ((cfg1.win 3).blk t).view.read (Elt Ideal) (affineRelu (V c main_v1_0) (V c main_v16) (V c main_v17)) := by
  show (cfg1.win 3).cut (grid1.coords t) ((dat1 V c).after 3 t) = _
  rw [after1_3]
  unfold out1_3
  rw [View.canon_unit_zero zero_offsets_affine]
  simp only [View.ld_unit_zero (S := S10000x64) zero_offsets_affine, View.ld_unit_zero (S := S1x64) zero_offsets_affine]
  obtain ⟨-, -, -, -, -, -, e0, e1⟩ := affine_index_facts t
  funext j
  show k1_pay1 (iblk1 V c 0 t) (iblk1 V c 1 t) (iblk1 V c 2 t) j
    = affineRelu (V c main_v1_0) (V c main_v16) (V c main_v17) (((cfg1.win 3).blk t).view.emb j)
  refine affine_point_apply_idx V c t j _ ?_ ?_
  · show win1_3.index t (0 : Fin 2) * 10000 + 1 * (j 0).val = t.val * 10000 + (j 0).val
    rw [e0]; omega
  · show win1_3.index t (1 : Fin 2) * 64 + 1 * (j 1).val = (j 1).val
    rw [e1]; omega

/-- An index of the result is in point t's block iff each coordinate is in the block's range on its axis. -/
theorem affine_mem_blk (t : Fin cfg1.N) (i : S1000000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v18).slice (win1_3.rect t)).set ↔ _
  rw [View.set_slice_whole, Rect.mem_set_unit]
  exact Iff.rfl

/-- Every row block is some point's. -/
theorem affine_index_onto : ∀ q : Fin 100, ∃ t : Fin cfg1.N, win1_3.index t = ![q.val, 0] :=
  (by decide +kernel : ∀ q : Fin 100, ∃ t : Fin grid1.N, win1_3.index t = ![q.val, 0])

/-- Row p of the result is written by point p / 10000. -/
theorem affine_cover (i : S1000000x64.Idx) :
    ∃ t : Fin cfg1.N, (cfg1.win 3).flush t = true ∧ i ∈ ((cfg1.win 3).blk t).view.set := by
  have hi0 : (i 0).val < 1000000 := (i 0).isLt
  have hi1 : (i 1).val < 64 := (i 1).isLt
  obtain ⟨t, ht⟩ := affine_index_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [affine_mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- THE RESULT of the region: max(x·scale + shift, 0), column by column. -/
theorem final1 (c : Dev nD) :
    (dat1 (F := Ideal) V c).arrAt 3 cfg1.N
      = affineRelu (V c main_v1_0) (V c main_v16) (V c main_v17) :=
  (dat1 (F := Ideal) V c).arrAt_eq_of_cover 3 (affineRelu (V c main_v1_0) (V c main_v16) (V c main_v17))
    (fun t _ => affine_flushed_eq V c t) affine_cover

end Cert.KernelIdeal.KValue

end
-- ==== Proof.LibColumnsConcat.lean ====
/-
  Two matrices joined along their columns, read at coordinates, for any extents and element type: the [a, b₁ + b₂]
  matrix `[x₁ | x₂]` reads, at (p, d), `x₁` at (p, d) when `d < b₁` and `x₂` at (p, d - b₁) otherwise (what a kernel's
  `jnp.concatenate([x₁, x₂], axis=-1)` of two [a, ·] values needs); and an [a, 1, 1] array cast to the column [a, 1]
  reads, at (p, 0), the operand at (p, 0, 0) (a keepdims slice of an [a, k, 1] array with one unit axis dropped).
-/
import Idealize.ShloMosaic.Lib.ValueIdx
import Idealize.ShloMosaic.Lib.Pipeline.Value

namespace Idealize.ShloMosaic.ValueIdx

variable {α : Type}

/-- A column in the first piece: `[x₁ | x₂]` at (p, d) with `d < b₁` is `x₁` at (p, d). -/
theorem concatenate_cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : d.val < b₁) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₁ (ix2 p ⟨d.val, hd⟩) :=
  concatenate_pair_apply_left _ x₁ x₂ h (ix2 p d) rfl (ix2 p ⟨d.val, hd⟩)
    (fun c => match c with | ⟨0, _⟩ => rfl | ⟨1, _⟩ => rfl)

/-- A column in the second piece: `[x₁ | x₂]` at (p, d) with `b₁ ≤ d` is `x₂` at (p, d - b₁). -/
theorem concatenate_cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : b₁ ≤ d.val) (hd2 : d.val - b₁ < b₂) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₂ (ix2 p ⟨d.val - b₁, hd2⟩) :=
  concatenate_pair_apply_right _ x₁ x₂ h (ix2 p d) rfl rfl (ix2 p ⟨d.val - b₁, hd2⟩)
    (fun c hc => match c, hc with | ⟨0, _⟩, _ => rfl | ⟨1, _⟩, hc => absurd rfl hc)
    (by show d.val - b₁ + b₁ = d.val; omega)

/-- An [a, 1, 1] array cast to the column [a, 1] reads, at (p, 0), the operand at (p, 0, 0). -/
theorem shapeCast_a11_a1_apply {a : ℕ} (x : (⟨3, ![a, 1, 1]⟩ : Shape).Idx → α)
    (h : (⟨3, ![a, 1, 1]⟩ : Shape).ShapeCasts ⟨2, ![a, 1]⟩) (p : Fin a) :
    shapeCast ⟨2, ![a, 1]⟩ x h (ix2 p (0 : Fin 1)) = x (ix3 p (0 : Fin 1) (0 : Fin 1)) :=
  shapeCast_apply x h _ _ (by
    rw [Shape.rowMajor_val_three, Shape.rowMajor_val_two]
    show (p.val * 1 + 0) * 1 + 0 = p.val * 1 + 0
    omega)

end Idealize.ShloMosaic.ValueIdx
-- ==== Proof.Region2.lean ====
/-
  The third kernel region read as a whole array: the two [1000000, 64] arrays it is given, joined along the columns.

  Every grid point t (100 of them) stages rows 10000·t … 10000·t + 9999 of both inputs, joins the two [10000, 64]
  blocks into one [10000, 128] block — columns 0–63 from the first, columns 64–127 from the second — and writes that
  block back to rows 10000·t … of the [1000000, 128] result.  Row p of the result is therefore written by point
  p / 10000, and what it holds there is row p of the first input followed by row p of the second: `Spec.joined`.
-/
import proofs.«114109_j88794153877507_1_alg».proof.Proof.Gen.KernelIdeal.Frame
import proofs.«114109_j88794153877507_1_alg».proof.Proof.Spec
import proofs.«114109_j88794153877507_1_alg».proof.Proof.LibColumnsConcat
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, as a constant function. -/
theorem zero_offsets_join : (![0, 0] : Fin 2 → Nat) = fun _ => 0 := funext fun a => by fin_cases a <;> rfl

/-! ## One block: the join read at coordinates -/

/-- Columns 0–63 of the joined block are the first block's. -/
theorem join_block_left (x0 x1 : Vec Ideal S10000x64 .f32) (r : Fin 10000) (d : Fin 128) (hd : d.val < 64) :
    k2_pay1 x0 x1 (ValueIdx.ix2 r d) = x0 (ValueIdx.ix2 r ⟨d.val, hd⟩) := by
  unfold k2_pay1
  simp only [shapeCast_self]
  exact ValueIdx.concatenate_cols_left x0 x1 _ r d hd

/-- Columns 64–127 of the joined block are the second block's columns 0–63. -/
theorem join_block_right (x0 x1 : Vec Ideal S10000x64 .f32) (r : Fin 10000) (d : Fin 128) (hd : 64 ≤ d.val) :
    k2_pay1 x0 x1 (ValueIdx.ix2 r d) = x1 (ValueIdx.ix2 r ⟨d.val - 64, by have := d.isLt; omega⟩) := by
  unfold k2_pay1
  simp only [shapeCast_self]
  exact ValueIdx.concatenate_cols_right x0 x1 _ r d hd _

/-! ## Where a block sits in its array -/

/-- All three windows move down the rows with the grid point and stay at column block 0 (decided over the 100 points). -/
theorem join_index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Entry (r, q) of the first input's block at point t is entry (10000·t + r, q) of the first input. -/
theorem join_in0_apply (c : Dev nD) (t : Fin cfg2.N) (x : S10000x64.Idx) (k : S1000000x64.Idx)
    (hk0 : (k 0).val = t.val * 10000 + (x 0).val) (hk1 : (k 1).val = (x 1).val) :
    (iblk2 V c 0 t : Vec Ideal S10000x64 .f32) x = (V c main_v18 : S1000000x64.Idx → EReal) k := by
  obtain ⟨e0, e1, -, -, -, -⟩ := join_index_facts t
  unfold iblk2
  rw [View.read_apply]
  show V c main_v18 _ = V c main_v18 _
  congr 1
  funext a
  apply Fin.ext
  match a with
  | ⟨0, _⟩ => show win2_0.index t (0 : Fin 2) * 10000 + 1 * (x 0).val = (k 0).val; rw [e0, hk0]; omega
  | ⟨1, _⟩ => show win2_0.index t (1 : Fin 2) * 64 + 1 * (x 1).val = (k 1).val; rw [e1, hk1]; omega

/-- Entry (r, q) of the second input's block at point t is entry (10000·t + r, q) of the second input. -/
theorem join_in1_apply (c : Dev nD) (t : Fin cfg2.N) (x : S10000x64.Idx) (k : S1000000x64.Idx)
    (hk0 : (k 0).val = t.val * 10000 + (x 0).val) (hk1 : (k 1).val = (x 1).val) :
    (iblk2 V c 1 t : Vec Ideal S10000x64 .f32) x = (V c main_v37 : S1000000x64.Idx → EReal) k := by
  obtain ⟨-, -, e0, e1, -, -⟩ := join_index_facts t
  unfold iblk2
  rw [View.read_apply]
  show V c main_v37 _ = V c main_v37 _
  congr 1
  funext a
  apply Fin.ext
  match a with
  | ⟨0, _⟩ => show win2_1.index t (0 : Fin 2) * 10000 + 1 * (x 0).val = (k 0).val; rw [e0, hk0]; omega
  | ⟨1, _⟩ => show win2_1.index t (1 : Fin 2) * 64 + 1 * (x 1).val = (k 1).val; rw [e1, hk1]; omega

/-- The joined block of point t at (r, d) is the joined array at (10000·t + r, d). -/
theorem join_point_apply (c : Dev nD) (t : Fin cfg2.N) (r : Fin 10000) (d : Fin 128) (i : S1000000x128.Idx)
    (h0 : (i 0).val = t.val * 10000 + r.val) (h1 : (i 1).val = d.val) :
    k2_pay1 (iblk2 V c 0 t) (iblk2 V c 1 t) (ValueIdx.ix2 r d)
      = Cert.Spec.joined (V c main_v18) (V c main_v37) i := by
  by_cases hd : d.val < 64
  · have hi : (i 1).val < 64 := by omega
    refine (join_block_left (iblk2 V c 0 t) (iblk2 V c 1 t) r d hd).trans ?_
    refine (join_in0_apply V c t (ValueIdx.ix2 r ⟨d.val, hd⟩) (ValueIdx.ix2 (i 0) ⟨(i 1).val, hi⟩) h0 h1).trans ?_
    unfold Cert.Spec.joined
    rw [dif_pos hi]
  · have hi : ¬ (i 1).val < 64 := by omega
    have hd' : 64 ≤ d.val := by omega
    refine (join_block_right (iblk2 V c 0 t) (iblk2 V c 1 t) r d hd').trans ?_
    refine (join_in1_apply V c t (ValueIdx.ix2 r ⟨d.val - 64, by have := d.isLt; omega⟩)
      (ValueIdx.ix2 (i 0) ⟨(i 1).val - 64, by have := (i 1).isLt; change (i 1).val < 128 at this; omega⟩) h0 ?_).trans ?_
    · show (i 1).val - 64 = d.val - 64
      omega
    unfold Cert.Spec.joined
    rw [dif_neg hi]

/-- The same at an index of the block given whole. -/
theorem join_point_apply_idx (c : Dev nD) (t : Fin cfg2.N) (j : S10000x128.Idx) (i : S1000000x128.Idx)
    (h0 : (i 0).val = t.val * 10000 + (j 0).val) (h1 : (i 1).val = (j 1).val) :
    k2_pay1 (iblk2 V c 0 t) (iblk2 V c 1 t) j = Cert.Spec.joined (V c main_v18) (V c main_v37) i :=
  (congrArg (k2_pay1 (iblk2 V c 0 t) (iblk2 V c 1 t)) (ValueIdx.eq_ix2 j)).trans
    (join_point_apply V c t (j 0) (j 1) i h0 h1)

/-! ## From the blocks to the array -/

/-- What point t writes back is block t of the joined array. -/
theorem join_flushed_eq (c : Dev nD) (t : Fin cfg2.N) :
    (dat2 (F := Ideal) V c).flushed 2 t
      = ((cfg2.win 2).blk t).view.read (Elt Ideal) (Cert.Spec.joined (V c main_v18) (V c main_v37)) := by
  show (cfg2.win 2).cut (grid2.coords t) ((dat2 V c).after 2 t) = _
  rw [after2_2]
  unfold out2_2
  rw [View.canon_unit_zero zero_offsets_join]
  simp only [View.ld_unit_zero (S := S10000x64) zero_offsets_join]
  obtain ⟨-, -, -, -, e0, e1⟩ := join_index_facts t
  funext j
  show k2_pay1 (iblk2 V c 0 t) (iblk2 V c 1 t) j
    = Cert.Spec.joined (V c main_v18) (V c main_v37) (((cfg2.win 2).blk t).view.emb j)
  refine join_point_apply_idx V c t j _ ?_ ?_
  · show win2_2.index t (0 : Fin 2) * 10000 + 1 * (j 0).val = t.val * 10000 + (j 0).val
    rw [e0]; omega
  · show win2_2.index t (1 : Fin 2) * 128 + 1 * (j 1).val = (j 1).val
    rw [e1]; omega

/-- An index of the result is in point t's block iff each coordinate is in the block's range on its axis. -/
theorem join_mem_blk (t : Fin cfg2.N) (i : S1000000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v38).slice (win2_2.rect t)).set ↔ _
  rw [View.set_slice_whole, Rect.mem_set_unit]
  exact Iff.rfl

/-- Every row block is some point's. -/
theorem join_index_onto : ∀ q : Fin 100, ∃ t : Fin cfg2.N, win2_2.index t = ![q.val, 0] :=
  (by decide +kernel : ∀ q : Fin 100, ∃ t : Fin grid2.N, win2_2.index t = ![q.val, 0])

/-- Row p of the result is written by point p / 10000. -/
theorem join_cover (i : S1000000x128.Idx) :
    ∃ t : Fin cfg2.N, (cfg2.win 2).flush t = true ∧ i ∈ ((cfg2.win 2).blk t).view.set := by
  have hi0 : (i 0).val < 1000000 := (i 0).isLt
  have hi1 : (i 1).val < 128 := (i 1).isLt
  obtain ⟨t, ht⟩ := join_index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [join_mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- THE RESULT of the region: the two input arrays joined along the columns. -/
theorem final2 (c : Dev nD) :
    (dat2 (F := Ideal) V c).arrAt 2 cfg2.N = Cert.Spec.joined (V c main_v18) (V c main_v37) :=
  (dat2 (F := Ideal) V c).arrAt_eq_of_cover 2 (Cert.Spec.joined (V c main_v18) (V c main_v37))
    (fun t _ => join_flushed_eq V c t) join_cover

end Cert.KernelIdeal.KValue

end
-- ==== Proof.Affine.lean ====
/-
  The host's epilogue between the first two kernels, read at a column.

  Every operation of the epilogue acts column by column: the [1, 64] rows of column sums are read as [64] vectors
  (entry q of the vector is entry (0, q) of the row), divided by the row count, combined into the variance
  mean-of-squares minus squared mean, guarded by ε, passed through the inverse square root and multiplied by γ;
  the shift is β minus mean times scale; both are written back as [1, 64] rows (entry (u, q) of the row is entry q of
  the vector). At column q this is, term by term, the scale and the shift of the common specification, once the two
  rows hold the column sums and the column sums of squares.
-/
import proofs.«114109_j88794153877507_1_alg».proof.Proof.AffineDefs
import proofs.«114109_j88794153877507_1_alg».proof.Proof.Spec

noncomputable section

namespace Cert.KernelIdeal.KValue

open Cert.KernelIdeal Cert.KernelIdeal.Facts₀ Idealize.ShloMosaic Idealize.ShloMosaic.ValueIdx

/-- Column q's mean: the row's entry (0, q) over the row count. -/
theorem meanV_apply (s1row : FVec Ideal S1x64 .f32) (q : Fin 64) :
    meanV s1row (ix1 q) = Ideal.div (s1row (ix2 (0 : Fin 1) q)) Cert.Spec.cN := by
  show Ideal.div (shapeCast S64 s1row shapeCasts_S1x64_S64 (ix1 q)) (Ideal.ofBits .f32 0x49742400#32) = _
  rw [shapeCast_1a_a_apply]
  rfl

/-- Column q's folded scale. -/
theorem scaleV_apply (s1row s2row : FVec Ideal S1x64 .f32) (γ : FVec Ideal S64 .f32) (q : Fin 64) :
    scaleV s1row s2row γ (ix1 q)
      = γ (ix1 q) * Ideal.rsqrt (Ideal.div (s2row (ix2 (0 : Fin 1) q)) Cert.Spec.cN
          - meanV s1row (ix1 q) * meanV s1row (ix1 q) + Cert.Spec.cEps) := by
  show γ (ix1 q) * Ideal.rsqrt (Ideal.div (shapeCast S64 s2row shapeCasts_S1x64_S64 (ix1 q)) (Ideal.ofBits .f32 0x49742400#32)
          - meanV s1row (ix1 q) * meanV s1row (ix1 q) + Ideal.ofBits .f32 0x3727C5AC#32) = _
  rw [shapeCast_1a_a_apply]
  rfl

/-- Column q's folded shift. -/
theorem shiftV_apply (s1row s2row : FVec Ideal S1x64 .f32) (γ β : FVec Ideal S64 .f32) (q : Fin 64) :
    shiftV s1row s2row γ β (ix1 q) = β (ix1 q) - meanV s1row (ix1 q) * scaleV s1row s2row γ (ix1 q) := rfl

theorem scale2_apply (s1row s2row : FVec Ideal S1x64 .f32) (γ : FVec Ideal S64 .f32) (h : Fin 1000000 → Fin 64 → EReal)
    (γ' : Fin 64 → EReal) (u : Fin 1) (q : Fin 64)
    (h1 : s1row (ix2 (0 : Fin 1) q) = Cert.Spec.s1 h q) (h2 : s2row (ix2 (0 : Fin 1) q) = Cert.Spec.s2 h q)
    (hγ : γ (ix1 q) = γ' q) :
    shapeCast S1x64 (scaleV s1row s2row γ) shapeCasts_S64_S1x64 (ix2 u q) = Cert.Spec.scaleS h γ' q := by
  rw [shapeCast_a_1a_apply, scaleV_apply, meanV_apply, h1, h2, hγ]
  rfl

theorem shift2_apply (s1row s2row : FVec Ideal S1x64 .f32) (γ β : FVec Ideal S64 .f32) (h : Fin 1000000 → Fin 64 → EReal)
    (γ' β' : Fin 64 → EReal) (u : Fin 1) (q : Fin 64)
    (h1 : s1row (ix2 (0 : Fin 1) q) = Cert.Spec.s1 h q) (h2 : s2row (ix2 (0 : Fin 1) q) = Cert.Spec.s2 h q)
    (hγ : γ (ix1 q) = γ' q) (hβ : β (ix1 q) = β' q) :
    shapeCast S1x64 (shiftV s1row s2row γ β) shapeCasts_S64_S1x64 (ix2 u q) = Cert.Spec.shiftS h γ' β' q := by
  rw [shapeCast_a_1a_apply, shiftV_apply, scaleV_apply, meanV_apply, h1, h2, hγ, hβ]
  rfl

end Cert.KernelIdeal.KValue

end
-- ==== Proof.KValue.lean ====
import proofs.«114109_j88794153877507_1_alg».proof.Proof.KRun
import proofs.«114109_j88794153877507_1_alg».proof.Proof.HostStretches
import proofs.«114109_j88794153877507_1_alg».proof.Proof.Region0Rows
import proofs.«114109_j88794153877507_1_alg».proof.Proof.Region1
import proofs.«114109_j88794153877507_1_alg».proof.Proof.Region2
import proofs.«114109_j88794153877507_1_alg».proof.Proof.Affine
import Idealize.ShloMosaic.Lib.ValueLayout

set_option maxRecDepth 16384

noncomputable section

open Idealize.ShloMosaic Idealize.ShloMosaic.TcCoe Idealize.SL.Sem

/-! # The kernel program's result, from the launch arguments

Reading the six segments in order: the first kernel leaves the linear layer of the launch arguments and its two rows
of column sums; the host folds them into the scale and shift rows; the second kernel leaves the normalised, rectified
values (the arrangement through the two sums); the host pools them; the third kernel joins the two halves. -/

namespace Cert.KernelIdeal.KValue
open Cert.KernelIdeal Cert.KernelIdeal.Facts₀ Idealize.ShloMosaic.ValueIdx

variable (m : (ℓ : Loc nD τ sig) → Buf (Elt Ideal) ℓ) (ρ : Dev nD → PrngReg)

/-- The linear layer of the launch arguments, by coordinates. -/
def hK (c : Dev nD) : Fin 1000000 → Fin 64 → EReal :=
  Cert.Spec.lin (fun p j => m ((c.tc : Thread nD τ).loc main_arg0) (ix2 p j))
    (fun j q => m ((c.tc : Thread nD τ).loc main_arg3) (ix2 j q)) (fun q => m ((c.tc : Thread nD τ).loc main_arg4) (ix1 q))
/-- γ and β by coordinates. -/
def gK (c : Dev nD) : Fin 64 → EReal := fun q => m ((c.tc : Thread nD τ).loc main_arg5) (ix1 q)
def betaK (c : Dev nD) : Fin 64 → EReal := fun q => m ((c.tc : Thread nD τ).loc main_arg6) (ix1 q)
/-- The normalised, rectified values, in the arrangement through the two sums. -/
def hfK (c : Dev nD) : S1000000x64.Idx → EReal := Cert.Spec.arr (Cert.Spec.bnS (hK m c) (gK m c) (betaK m c))

/-- The linear layer of three arrays, the bias viewed as a row, is the specification's, by coordinates. -/
theorem linOf_eq (x : S1000000x192.Idx → EReal) (W : S192x64.Idx → EReal) (b : S64.Idx → EReal) :
    linOf x W (shapeCast S1x64 b shapeCasts_S64_S1x64)
      = Cert.Spec.arr (Cert.Spec.lin (fun p j => x (ix2 p j)) (fun j q => W (ix2 j q)) (fun q => b (ix1 q))) := by
  funext i
  obtain ⟨p, q, rfl⟩ : ∃ (p : Fin 1000000) (q : Fin 64), i = ix2 p q := ⟨i 0, i 1, eq_ix2 i⟩
  show (∑ j : Fin 192, x (ix2 p j) * W (ix2 j q)) + shapeCast S1x64 b shapeCasts_S64_S1x64 (ix2 (0 : Fin 1) q)
    = (∑ j : Fin 192, x (ix2 p j) * W (ix2 j q)) + b (ix1 q)
  rw [shapeCast_a_1a_apply]

/-- What the first kernel finds in its windows gives the linear layer of the launch arguments. -/
theorem linV_eq (c : Dev nD) : linV (Gen.V1 m ρ) c = Cert.Spec.arr (hK m c) := by
  unfold linV
  have e0 : Gen.V1 m ρ c main_arg0 = m ((c.tc : Thread nD τ).loc main_arg0) := W1_arg m ρ c main_arg0 (by decide)
  have e3 : Gen.V1 m ρ c main_arg3 = m ((c.tc : Thread nD τ).loc main_arg3) := W1_arg m ρ c main_arg3 (by decide)
  rw [e0, e3, V1_v0 m ρ c]
  exact linOf_eq _ _ _

/-- After the first kernel its first result holds the linear layer. -/
theorem W2_lin (c : Dev nD) : Gen.W2 m ρ c (Proc.devRef .tc main_v1_0) = Cert.Spec.arr (hK m c) :=
  (Gen.W2_arr m ρ c 3).trans ((final0_lin (Gen.V1 m ρ) c).trans (linV_eq m ρ c))

/-- … its second the column sums, -/
theorem W2_s1 (c : Dev nD) (q : Fin 64) :
    (Gen.W2 m ρ c (Proc.devRef .tc main_v1_1) : S1x64.Idx → EReal) (ix2 (0 : Fin 1) q) = Cert.Spec.s1 (hK m c) q := by
  have e : (∑ p : Fin 1000000, linV (Gen.V1 m ρ) c (ix2 p q)) = Cert.Spec.s1 (hK m c) q := by
    unfold Cert.Spec.s1
    exact Finset.sum_congr rfl fun p _ => by rw [linV_eq]; rfl
  exact (congrFun (Gen.W2_arr m ρ c 4) (ix2 (0 : Fin 1) q)).trans ((final0_sum (Gen.V1 m ρ) c q).trans e)

/-- … its third the column sums of squares. -/
theorem W2_s2 (c : Dev nD) (q : Fin 64) :
    (Gen.W2 m ρ c (Proc.devRef .tc main_v1_2) : S1x64.Idx → EReal) (ix2 (0 : Fin 1) q) = Cert.Spec.s2 (hK m c) q := by
  have e : (∑ p : Fin 1000000, linV (Gen.V1 m ρ) c (ix2 p q) * linV (Gen.V1 m ρ) c (ix2 p q)) = Cert.Spec.s2 (hK m c) q := by
    unfold Cert.Spec.s2
    exact Finset.sum_congr rfl fun p _ => by rw [linV_eq]; rfl
  exact (congrFun (Gen.W2_arr m ρ c 5) (ix2 (0 : Fin 1) q)).trans ((final0_sumsq (Gen.V1 m ρ) c q).trans e)

/-- The scale row the second kernel finds. -/
theorem V3_scale (c : Dev nD) (u : Fin 1) (q : Fin 64) :
    (Gen.V3 m ρ c main_v16 : S1x64.Idx → EReal) (ix2 u q) = Cert.Spec.scaleS (hK m c) (gK m c) q :=
  (congrFun (V3_v16 m ρ c) (ix2 u q)).trans
    (scale2_apply _ _ _ (hK m c) (gK m c) u q (W2_s1 m ρ c q) (W2_s2 m ρ c q) (congrFun (W2_arg5 m ρ c) (ix1 q)))

/-- The shift row the second kernel finds. -/
theorem V3_shift (c : Dev nD) (u : Fin 1) (q : Fin 64) :
    (Gen.V3 m ρ c main_v17 : S1x64.Idx → EReal) (ix2 u q) = Cert.Spec.shiftS (hK m c) (gK m c) (betaK m c) q :=
  (congrFun (V3_v17 m ρ c) (ix2 u q)).trans
    (shift2_apply _ _ _ _ (hK m c) (gK m c) (betaK m c) u q (W2_s1 m ρ c q) (W2_s2 m ρ c q)
      (congrFun (W2_arg5 m ρ c) (ix1 q)) (congrFun (W2_arg6 m ρ c) (ix1 q)))

/-- After the second kernel its result holds the normalised, rectified values. -/
theorem W4_hf (c : Dev nD) : Gen.W4 m ρ c (Proc.devRef .tc main_v18) = hfK m c := by
  refine (Gen.W4_arr m ρ c 3).trans ((final1 (Gen.V3 m ρ) c).trans ?_)
  funext i
  rw [affineRelu_apply, V3_scale m ρ c 0 (i 1), V3_shift m ρ c 0 (i 1)]
  have e : (Gen.V3 m ρ c main_v1_0 : S1000000x64.Idx → EReal) i = hK m c (i 0) (i 1) :=
    congrFun ((V3_v1_0 m ρ c).trans (W2_lin m ρ c)) i
  rw [e]
  rfl

/-- After the third kernel the result holds the two halves joined. -/
theorem W6_out (c : Dev nD) : Gen.W6 m ρ c (Proc.devRef .tc main_v38)
    = Cert.Spec.joined (hfK m c) (tail (hfK m c) (m ((c.tc : Thread nD τ).loc main_arg2))) := by
  refine (Gen.W6_arr m ρ c 2).trans ((final2 (Gen.V5 m ρ) c).trans ?_)
  rw [V5_v18, V5_v37, W4_arg2, W4_hf]

/-- The kernel program's run, with its result named. -/
theorem run : θ_run defs (onTc (τ := τ) (main (F := Ideal))) ⟨m, fun _ => 0, ρ⟩ (fun r => ∀ c : Dev nD,
      r.2.mem ((c.tc : Thread nD τ).loc main_v38)
        = Cert.Spec.joined (hfK m c) (tail (hfK m c) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W6_out m ρ c), (h c).2⟩) (run_main m ρ)

end Cert.KernelIdeal.KValue

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.LibTypedLines.lean ====
/-
  Straight lines of host operations written through TYPED references.

  A typed reference is a buffer together with the fact that its type is a given value type; the typed builders
  transport contents along that fact when they read an operand and when they write the result. For a line in which
  operation `j` writes exactly reference `j` of a list `W` (the aligned lines of `LibAlignedLines`), the final
  contents of the result, READ AT ITS VALUE TYPE, are the operation's function of the final contents of the operands
  read at theirs: the transports stand outside the function, on single buffers. The type facts are equations whose
  one side is a variable, so they are substituted away and each statement is the untyped one.
-/
import proofs.«114109_j88794153877507_1_alg».proof.Proof.LibAlignedLines

noncomputable section

namespace Idealize.ShloMosaic.StableHlo.AlignedLines

open Idealize.ShloMosaic Idealize.SL.Sem Idealize.ShloMosaic.StableHlo

variable {τ : Topo} {sig : RefSig} {Val : EltTy → Type}
variable {l : List (HloOp τ sig Val)} {W : List (Ref sig .tc)}

/-- A typed two-operand operation at position `j`: its result, read at its value type, is the function of the
    operands' final contents read at theirs. -/
theorem Aligned.tbinary_at (h : Aligned l W) (V : Valuation τ sig Val) (j : Nat) {Ta Tb Ty : BufTy}
    (a : TRef sig Ta) (b : TRef sig Tb) (y : TRef sig Ty) (f : Ta.Contents Val → Tb.Contents Val → Ty.Contents Val)
    (hop : l[j]? = some (TRef.binary a b y f)) (hy' : y.ref ∉ W.drop (j + 1)) (ha' : a.ref ∉ W.drop j) (hb' : b.ref ∉ W.drop j) :
    y.ofBuf (after l V (Proc.devRef .tc y.ref))
      = f (a.ofBuf (after l V (Proc.devRef .tc a.ref))) (b.ofBuf (after l V (Proc.devRef .tc b.ref))) := by
  obtain ⟨ra, rfl, _, _⟩ := a
  obtain ⟨rb, rfl, _, _⟩ := b
  obtain ⟨ry, rfl, _, _⟩ := y
  exact h.binary_at V j hop hy' ha' hb'

/-- A typed three-operand operation at position `j`, likewise. -/
theorem Aligned.tternary_at (h : Aligned l W) (V : Valuation τ sig Val) (j : Nat) {Tc Ta Tb Ty : BufTy}
    (c : TRef sig Tc) (a : TRef sig Ta) (b : TRef sig Tb) (y : TRef sig Ty)
    (f : Tc.Contents Val → Ta.Contents Val → Tb.Contents Val → Ty.Contents Val)
    (hop : l[j]? = some (TRef.ternary c a b y f)) (hy' : y.ref ∉ W.drop (j + 1))
    (hc' : c.ref ∉ W.drop j) (ha' : a.ref ∉ W.drop j) (hb' : b.ref ∉ W.drop j) :
    y.ofBuf (after l V (Proc.devRef .tc y.ref))
      = f (c.ofBuf (after l V (Proc.devRef .tc c.ref))) (a.ofBuf (after l V (Proc.devRef .tc a.ref)))
          (b.ofBuf (after l V (Proc.devRef .tc b.ref))) := by
  obtain ⟨rc, rfl, _, _⟩ := c
  obtain ⟨ra, rfl, _, _⟩ := a
  obtain ⟨rb, rfl, _, _⟩ := b
  obtain ⟨ry, rfl, _, _⟩ := y
  exact h.ternary_at V j hop hy' hc' ha' hb'

/-- A typed one-operand operation at position `j`, likewise. -/
theorem Aligned.tunary_at (h : Aligned l W) (V : Valuation τ sig Val) (j : Nat) {Tx Ty : BufTy}
    (x : TRef sig Tx) (y : TRef sig Ty) (f : Tx.Contents Val → Ty.Contents Val)
    (hop : l[j]? = some (TRef.unary x y f)) (hy' : y.ref ∉ W.drop (j + 1)) (hx' : x.ref ∉ W.drop j) :
    y.ofBuf (after l V (Proc.devRef .tc y.ref)) = f (x.ofBuf (after l V (Proc.devRef .tc x.ref))) := by
  obtain ⟨rx, rfl, _, _⟩ := x
  obtain ⟨ry, rfl, _, _⟩ := y
  exact h.unary_at V j hop hy' hx'

end Idealize.ShloMosaic.StableHlo.AlignedLines

end
-- ==== Proof.RefRun.lean ====
/-
  The reference program's run.

  The reference is a straight line of host operations: the linear layer, the column means, the variance function
  (itself a short line, ending in a guarded selection), the normalisation and the rectifier, the pooled table and its
  gather, and the final join along the columns. Here its operations are listed in order, the two outlined functions'
  lines standing at their call sites over the call's own buffers; the program is shown to be that list run in order;
  and every weakly fair execution is shown to terminate with each buffer at the list's fold over the contents the run
  started from. The operations write the value buffers one each, in the order the buffers are declared, which is what
  lets each final value be read as its operation's function of its operands' final values.
-/
import proofs.«114109_j88794153877507_1_alg».proof.Proof.Gen.ReferenceIdeal
import proofs.«114109_j88794153877507_1_alg».proof.Proof.LibAlignedLines
import proofs.«114109_j88794153877507_1_alg».proof.Proof.LibTypedLines
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.StableHlo.AlignedLines

variable {F : FTy → Type} [FloatOps F]

/-- The program's 77 operations, in order: ten of its own, the variance function's nineteen and the selection's three
    over the first call's buffers, sixteen more of its own, the rectifier's three over the second call's buffers, and
    the last twenty-six. -/
abbrev ops : List (HloOp τ sig (Elt F)) :=
  [ binary main_arg0 main_arg3 main_v0 ((fun l r => Host.dotGeneral dot_S1000000x192_S192x64_S1000000x64_1_0_0_1_n_n none l r) : (⟨S1000000x192, .f32⟩ : BufTy).Contents (Elt F) → (⟨S192x64, .f32⟩ : BufTy).Contents (Elt F) → (⟨S1000000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S1000000x64 ![0, 1] bcast_S1x64_S1000000x64_0_1 : (⟨S1x64, .f32⟩ : BufTy).Contents (Elt F) → (⟨S1000000x64, .f32⟩ : BufTy).Contents (Elt F)),
    binary main_v0 main_v2 main_v3 (addf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    binary main_v3 main_cst main_v4 ((fun x v => Host.reduceAdd x v reducesTo_S1000000x64_S64_d0 h_S_) : (⟨S1000000x64, .f32⟩ : BufTy).Contents (Elt F) → (⟨S_, .f32⟩ : BufTy).Contents (Elt F) → (⟨S64, .f32⟩ : BufTy).Contents (Elt F)),
    nullary main_cst_0 (constant S_ .f32 0x49742400#32),
    unary main_cst_0 main_v5 (broadcastInDim S64 ![] bcast_S_S64 : (⟨S_, .f32⟩ : BufTy).Contents (Elt F) → (⟨S64, .f32⟩ : BufTy).Contents (Elt F)),
    binary main_v4 main_v5 main_v6 (Host.divf : (⟨S64, .f32⟩ : BufTy).Contents (Elt F) → (⟨S64, .f32⟩ : BufTy).Contents (Elt F) → (⟨S64, .f32⟩ : BufTy).Contents (Elt F)),
    nullary main_c (constantI S_ 32 0#32),
    TRef.nullary main_call0.cst (constant S_ .f32 0x00000000#32),
    TRef.binary (.of main_v3) main_call0.cst main_call0.v0 (fun x v => Host.reduceAdd x v reducesTo_S1000000x64_S64_d0 h_S_),
    TRef.unary main_call0.v0 main_call0.v1 (broadcastInDim S1x64 ![1] bcast_S64_S1x64_1),
    TRef.nullary main_call0.cst_0 (constant S_ .f32 0x49742400#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S1000000x64 ![0, 1] bcast_S1x64_S1000000x64_0_1),
    TRef.binary (.of main_v3) main_call0.v4 main_call0.v5 subf,
    TRef.binary main_call0.v5 main_call0.v5 main_call0.v6 mulf,
    TRef.unary (.of main_c) main_call0.v7 (sitofp .f32),
    TRef.nullary main_call0.cst_1 (constant S_ .f32 0x49742400#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1000000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v6 main_v8 (broadcastInDim S1x64 ![1] bcast_S64_S1x64_1 : (⟨S64, .f32⟩ : BufTy).Contents (Elt F) → (⟨S1x64, .f32⟩ : BufTy).Contents (Elt F)),
    unary main_v8 main_v9 (broadcastInDim S1000000x64 ![0, 1] bcast_S1x64_S1000000x64_0_1 : (⟨S1x64, .f32⟩ : BufTy).Contents (Elt F) → (⟨S1000000x64, .f32⟩ : BufTy).Contents (Elt F)),
    binary main_v3 main_v9 main_v10 (subf : (⟨S1000000x64, .f32⟩ : BufTy).Contents (Elt F) → (⟨S1000000x64, .f32⟩ : BufTy).Contents (Elt F) → (⟨S1000000x64, .f32⟩ : BufTy).Contents (Elt F)),
    nullary main_cst_1 (constant S_ .f32 0x3727C5AC#32),
    unary main_cst_1 main_v11 (broadcastInDim S64 ![] bcast_S_S64 : (⟨S_, .f32⟩ : BufTy).Contents (Elt F) → (⟨S64, .f32⟩ : BufTy).Contents (Elt F)),
    binary main_v7 main_v11 main_v12 (addf : (⟨S64, .f32⟩ : BufTy).Contents (Elt F) → (⟨S64, .f32⟩ : BufTy).Contents (Elt F) → (⟨S64, .f32⟩ : BufTy).Contents (Elt F)),
    unary main_v12 main_v13 (Host.rsqrt : (⟨S64, .f32⟩ : BufTy).Contents (Elt F) → (⟨S64, .f32⟩ : BufTy).Contents (Elt F)),
    unary main_v13 main_v14 (broadcastInDim S1x64 ![1] bcast_S64_S1x64_1 : (⟨S64, .f32⟩ : BufTy).Contents (Elt F) → (⟨S1x64, .f32⟩ : BufTy).Contents (Elt F)),
    unary main_v14 main_v15 (broadcastInDim S1000000x64 ![0, 1] bcast_S1x64_S1000000x64_0_1 : (⟨S1x64, .f32⟩ : BufTy).Contents (Elt F) → (⟨S1000000x64, .f32⟩ : BufTy).Contents (Elt F)),
    binary main_v10 main_v15 main_v16 (mulf : (⟨S1000000x64, .f32⟩ : BufTy).Contents (Elt F) → (⟨S1000000x64, .f32⟩ : BufTy).Contents (Elt F) → (⟨S1000000x64, .f32⟩ : BufTy).Contents (Elt F)),
    unary main_arg5 main_v17 (broadcastInDim S1x64 ![1] bcast_S64_S1x64_1 : (⟨S64, .f32⟩ : BufTy).Contents (Elt F) → (⟨S1x64, .f32⟩ : BufTy).Contents (Elt F)),
    unary main_v17 main_v18 (broadcastInDim S1000000x64 ![0, 1] bcast_S1x64_S1000000x64_0_1 : (⟨S1x64, .f32⟩ : BufTy).Contents (Elt F) → (⟨S1000000x64, .f32⟩ : BufTy).Contents (Elt F)),
    binary main_v16 main_v18 main_v19 (mulf : (⟨S1000000x64, .f32⟩ : BufTy).Contents (Elt F) → (⟨S1000000x64, .f32⟩ : BufTy).Contents (Elt F) → (⟨S1000000x64, .f32⟩ : BufTy).Contents (Elt F)),
    unary main_arg6 main_v20 (broadcastInDim S1x64 ![1] bcast_S64_S1x64_1 : (⟨S64, .f32⟩ : BufTy).Contents (Elt F) → (⟨S1x64, .f32⟩ : BufTy).Contents (Elt F)),
    unary main_v20 main_v21 (broadcastInDim S1000000x64 ![0, 1] bcast_S1x64_S1000000x64_0_1 : (⟨S1x64, .f32⟩ : BufTy).Contents (Elt F) → (⟨S1000000x64, .f32⟩ : BufTy).Contents (Elt F)),
    binary main_v19 main_v21 main_v22 (addf : (⟨S1000000x64, .f32⟩ : BufTy).Contents (Elt F) → (⟨S1000000x64, .f32⟩ : BufTy).Contents (Elt F) → (⟨S1000000x64, .f32⟩ : BufTy).Contents (Elt F)),
    TRef.nullary main_call1.cst (constant S_ .f32 0x00000000#32),
    TRef.unary main_call1.cst main_call1.v0 (broadcastInDim S1000000x64 ![] bcast_S_S1000000x64),
    TRef.binary (.of main_v22) main_call1.v0 main_call1.v1 maximumf,
    nullary main_cst_2 (constant S_ .f32 0x00000000#32),
    unary main_cst_2 main_v24 (broadcastInDim S50000x64 ![] bcast_S_S50000x64 : (⟨S_, .f32⟩ : BufTy).Contents (Elt F) → (⟨S50000x64, .f32⟩ : BufTy).Contents (Elt F)),
    unary main_arg2 main_v25 (broadcastInDim S1000000x1 ![0] bcast_S1000000_S1000000x1_0 : (⟨S1000000, .i32⟩ : BufTy).Contents (Elt F) → (⟨S1000000x1, .i32⟩ : BufTy).Contents (Elt F)),
    ternary main_v24 main_v25 main_v23 main_v26 ((fun x i u => Host.scatterAdd scatter_S50000x64_S1000000x1_S1000000x64_1_0_0_1 x i u) : (⟨S50000x64, .f32⟩ : BufTy).Contents (Elt F) → (⟨S1000000x1, .i32⟩ : BufTy).Contents (Elt F) → (⟨S1000000x64, .f32⟩ : BufTy).Contents (Elt F) → (⟨S50000x64, .f32⟩ : BufTy).Contents (Elt F)),
    nullary main_cst_3 (constant S_ .f32 0x3F800000#32),
    unary main_cst_3 main_v27 (broadcastInDim S1000000 ![] bcast_S_S1000000 : (⟨S_, .f32⟩ : BufTy).Contents (Elt F) → (⟨S1000000, .f32⟩ : BufTy).Contents (Elt F)),
    nullary main_cst_4 (constant S_ .f32 0x00000000#32),
    unary main_cst_4 main_v28 (broadcastInDim S50000 ![] bcast_S_S50000 : (⟨S_, .f32⟩ : BufTy).Contents (Elt F) → (⟨S50000, .f32⟩ : BufTy).Contents (Elt F)),
    unary main_arg2 main_v29 (broadcastInDim S1000000x1 ![0] bcast_S1000000_S1000000x1_0 : (⟨S1000000, .i32⟩ : BufTy).Contents (Elt F) → (⟨S1000000x1, .i32⟩ : BufTy).Contents (Elt F)),
    ternary main_v28 main_v29 main_v27 main_v30 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_cst_5 (constant S_ .f32 0x3F800000#32),
    unary main_cst_5 main_v31 (broadcastInDim S50000 ![] bcast_S_S50000 : (⟨S_, .f32⟩ : BufTy).Contents (Elt F) → (⟨S50000, .f32⟩ : BufTy).Contents (Elt F)),
    binary main_v30 main_v31 main_v32 (maximumf : (⟨S50000, .f32⟩ : BufTy).Contents (Elt F) → (⟨S50000, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x64 ![0, 1] bcast_S50000x1_S50000x64_0_1 : (⟨S50000x1, .f32⟩ : BufTy).Contents (Elt F) → (⟨S50000x64, .f32⟩ : BufTy).Contents (Elt F)),
    binary main_v26 main_v34 main_v35 (Host.divf : (⟨S50000x64, .f32⟩ : BufTy).Contents (Elt F) → (⟨S50000x64, .f32⟩ : BufTy).Contents (Elt F) → (⟨S50000x64, .f32⟩ : BufTy).Contents (Elt F)),
    nullary main_c_6 (constantI S_ 32 0#32),
    unary main_c_6 main_v36 (broadcastInDim S1000000 ![] bcast_S_S1000000 : (⟨S_, .i32⟩ : BufTy).Contents (Elt F) → (⟨S1000000, .i32⟩ : BufTy).Contents (Elt F)),
    binary main_arg2 main_v36 main_v37 (cmpi .slt : (⟨S1000000, .i32⟩ : BufTy).Contents (Elt F) → (⟨S1000000, .i32⟩ : BufTy).Contents (Elt F) → (⟨S1000000, .i1⟩ : BufTy).Contents (Elt F)),
    nullary main_c_7 (constantI S_ 32 50000#32),
    unary main_c_7 main_v38 (broadcastInDim S1000000 ![] bcast_S_S1000000 : (⟨S_, .i32⟩ : BufTy).Contents (Elt F) → (⟨S1000000, .i32⟩ : BufTy).Contents (Elt F)),
    binary main_arg2 main_v38 main_v39 (addi : (⟨S1000000, .i32⟩ : BufTy).Contents (Elt F) → (⟨S1000000, .i32⟩ : BufTy).Contents (Elt F) → (⟨S1000000, .i32⟩ : BufTy).Contents (Elt F)),
    ternary main_v37 main_v39 main_arg2 main_v40 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v40 main_v41 (broadcastInDim S1000000x1 ![0] bcast_S1000000_S1000000x1_0 : (⟨S1000000, .i32⟩ : BufTy).Contents (Elt F) → (⟨S1000000x1, .i32⟩ : BufTy).Contents (Elt F)),
    binary main_v35 main_v41 main_v42 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    binary main_v23 main_v42 main_v43 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)) ]

/-- The references the operations write, position by position: the value buffers in the order they are declared. -/
abbrev W : List (Ref sig .tc) :=
  [ main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7, main_v8, main_v9, main_v10, main_cst_1, main_v11, main_v12, main_v13, main_v14, main_v15, main_v16, main_v17, main_v18, main_v19, main_v20, main_v21, main_v22, main_call1_cst, main_call1_v0, main_v23, main_cst_2, main_v24, main_v25, main_v26, main_cst_3, main_v27, main_cst_4, main_v28, main_v29, main_v30, main_cst_5, main_v31, main_v32, main_v33, main_v34, main_v35, main_c_6, main_v36, main_v37, main_c_7, main_v38, main_v39, main_v40, main_v41, main_v42, main_v43 ]

/-- The program is that straight line: with the functions' definitions unfolded at their calls and the records at their
    fields, sequencing a step before a continuation computes to the step followed by the sequenced continuation, so both
    sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Operation by operation, the line writes exactly the references of `W`. -/
theorem aligned : Aligned (ops : List (HloOp τ sig (Elt F))) W := by
  unfold ops W
  repeat' constructor

/-- On every device, for any float values, from any memory with zero counters: every weakly fair execution of the
    program terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## Each final value as its operation's function of its operands' final values

Every operation writes a reference no later operation writes, and reads references no later operation writes
either; so the contents a reference ends with are its operation's function applied to the contents its operands
end with. One equation per operation follows, in the program's order; an argument, which no operation writes,
ends as it started. The outlined functions' lines are written through typed references, whose transports are
the identity at these literal references. -/

/-- The final contents of a reference: the fold of the whole line at it. -/
abbrev fin (V : Valuation τ sig (Elt F)) (r : Ref sig .tc) := after ops V (r : DevRef τ sig)

theorem fin_arg0 (V : Valuation τ sig (Elt F)) : fin V main_arg0 = V (main_arg0 : DevRef τ sig) :=
  aligned.after_of_not_mem V (by decide)
theorem fin_arg1 (V : Valuation τ sig (Elt F)) : fin V main_arg1 = V (main_arg1 : DevRef τ sig) :=
  aligned.after_of_not_mem V (by decide)
theorem fin_arg2 (V : Valuation τ sig (Elt F)) : fin V main_arg2 = V (main_arg2 : DevRef τ sig) :=
  aligned.after_of_not_mem V (by decide)
theorem fin_arg3 (V : Valuation τ sig (Elt F)) : fin V main_arg3 = V (main_arg3 : DevRef τ sig) :=
  aligned.after_of_not_mem V (by decide)
theorem fin_arg4 (V : Valuation τ sig (Elt F)) : fin V main_arg4 = V (main_arg4 : DevRef τ sig) :=
  aligned.after_of_not_mem V (by decide)
theorem fin_arg5 (V : Valuation τ sig (Elt F)) : fin V main_arg5 = V (main_arg5 : DevRef τ sig) :=
  aligned.after_of_not_mem V (by decide)
theorem fin_arg6 (V : Valuation τ sig (Elt F)) : fin V main_arg6 = V (main_arg6 : DevRef τ sig) :=
  aligned.after_of_not_mem V (by decide)

theorem st_v0 (V : Valuation τ sig (Elt F)) : fin V main_v0 = Host.dotGeneral dot_S1000000x192_S192x64_S1000000x64_1_0_0_1_n_n none (fin V main_arg0) (fin V main_arg3) :=
  aligned.binary_at V 0 rfl (by decide) (by decide) (by decide)

theorem st_v1 (V : Valuation τ sig (Elt F)) : fin V main_v1 = broadcastInDim S1x64 ![1] bcast_S64_S1x64_1 (fin V main_arg4) :=
  aligned.unary_at V 1 rfl (by decide) (by decide)

theorem st_v2 (V : Valuation τ sig (Elt F)) : fin V main_v2 = broadcastInDim S1000000x64 ![0, 1] bcast_S1x64_S1000000x64_0_1 (fin V main_v1) :=
  aligned.unary_at V 2 rfl (by decide) (by decide)

theorem st_v3 (V : Valuation τ sig (Elt F)) : fin V main_v3 = addf (fin V main_v0) (fin V main_v2) :=
  aligned.binary_at V 3 rfl (by decide) (by decide) (by decide)

theorem st_cst (V : Valuation τ sig (Elt F)) : fin V main_cst = constant S_ .f32 0x00000000#32 :=
  aligned.nullary_at V 4 rfl (by decide)

theorem st_v4 (V : Valuation τ sig (Elt F)) : fin V main_v4 = Host.reduceAdd (fin V main_v3) (fin V main_cst) reducesTo_S1000000x64_S64_d0 h_S_ :=
  aligned.binary_at V 5 rfl (by decide) (by decide) (by decide)

theorem st_cst_0 (V : Valuation τ sig (Elt F)) : fin V main_cst_0 = constant S_ .f32 0x49742400#32 :=
  aligned.nullary_at V 6 rfl (by decide)

theorem st_v5 (V : Valuation τ sig (Elt F)) : fin V main_v5 = broadcastInDim S64 ![] bcast_S_S64 (fin V main_cst_0) :=
  aligned.unary_at V 7 rfl (by decide) (by decide)

theorem st_v6 (V : Valuation τ sig (Elt F)) : fin V main_v6 = Host.divf (fin V main_v4) (fin V main_v5) :=
  aligned.binary_at V 8 rfl (by decide) (by decide) (by decide)

theorem st_c (V : Valuation τ sig (Elt F)) : fin V main_c = constantI S_ 32 0#32 :=
  aligned.nullary_at V 9 rfl (by decide)

theorem st_call0_cst (V : Valuation τ sig (Elt F)) : fin V main_call0_cst = constant S_ .f32 0x00000000#32 :=
  aligned.nullary_at V 10 rfl (by decide)

theorem st_call0_v0 (V : Valuation τ sig (Elt F)) : fin V main_call0_v0 = Host.reduceAdd (fin V main_v3) (fin V main_call0_cst) reducesTo_S1000000x64_S64_d0 h_S_ := by
  have h := aligned.tbinary_at V 11 _ _ _ _ rfl (by decide) (by decide) (by decide)
  unfold fin
  generalize after ops V = Z at h ⊢
  exact h

theorem st_call0_v1 (V : Valuation τ sig (Elt F)) : fin V main_call0_v1 = broadcastInDim S1x64 ![1] bcast_S64_S1x64_1 (fin V main_call0_v0) := by
  have h := aligned.tunary_at V 12 _ _ _ rfl (by decide) (by decide)
  unfold fin
  generalize after ops V = Z at h ⊢
  exact h

theorem st_call0_cst_0 (V : Valuation τ sig (Elt F)) : fin V main_call0_cst_0 = constant S_ .f32 0x49742400#32 :=
  aligned.nullary_at V 13 rfl (by decide)

theorem st_call0_v2 (V : Valuation τ sig (Elt F)) : fin V main_call0_v2 = broadcastInDim S1x64 ![] bcast_S_S1x64 (fin V main_call0_cst_0) := by
  have h := aligned.tunary_at V 14 _ _ _ rfl (by decide) (by decide)
  unfold fin
  generalize after ops V = Z at h ⊢
  exact h

theorem st_call0_v3 (V : Valuation τ sig (Elt F)) : fin V main_call0_v3 = Host.divf (fin V main_call0_v1) (fin V main_call0_v2) := by
  have h := aligned.tbinary_at V 15 _ _ _ _ rfl (by decide) (by decide) (by decide)
  unfold fin
  generalize after ops V = Z at h ⊢
  exact h

theorem st_call0_v4 (V : Valuation τ sig (Elt F)) : fin V main_call0_v4 = broadcastInDim S1000000x64 ![0, 1] bcast_S1x64_S1000000x64_0_1 (fin V main_call0_v3) := by
  have h := aligned.tunary_at V 16 _ _ _ rfl (by decide) (by decide)
  unfold fin
  generalize after ops V = Z at h ⊢
  exact h

theorem st_call0_v5 (V : Valuation τ sig (Elt F)) : fin V main_call0_v5 = subf (fin V main_v3) (fin V main_call0_v4) := by
  have h := aligned.tbinary_at V 17 _ _ _ _ rfl (by decide) (by decide) (by decide)
  unfold fin
  generalize after ops V = Z at h ⊢
  exact h

theorem st_call0_v6 (V : Valuation τ sig (Elt F)) : fin V main_call0_v6 = mulf (fin V main_call0_v5) (fin V main_call0_v5) := by
  have h := aligned.tbinary_at V 18 _ _ _ _ rfl (by decide) (by decide) (by decide)
  unfold fin
  generalize after ops V = Z at h ⊢
  exact h

theorem st_call0_v7 (V : Valuation τ sig (Elt F)) : fin V main_call0_v7 = sitofp .f32 (fin V main_c) := by
  have h := aligned.tunary_at V 19 _ _ _ rfl (by decide) (by decide)
  unfold fin
  generalize after ops V = Z at h ⊢
  exact h

theorem st_call0_cst_1 (V : Valuation τ sig (Elt F)) : fin V main_call0_cst_1 = constant S_ .f32 0x49742400#32 :=
  aligned.nullary_at V 20 rfl (by decide)

theorem st_call0_v8 (V : Valuation τ sig (Elt F)) : fin V main_call0_v8 = subf (fin V main_call0_cst_1) (fin V main_call0_v7) := by
  have h := aligned.tbinary_at V 21 _ _ _ _ rfl (by decide) (by decide) (by decide)
  unfold fin
  generalize after ops V = Z at h ⊢
  exact h

theorem st_call0_cst_2 (V : Valuation τ sig (Elt F)) : fin V main_call0_cst_2 = constant S_ .f32 0x00000000#32 :=
  aligned.nullary_at V 22 rfl (by decide)

theorem st_call0_v9 (V : Valuation τ sig (Elt F)) : fin V main_call0_v9 = Host.reduceAdd (fin V main_call0_v6) (fin V main_call0_cst_2) reducesTo_S1000000x64_S64_d0 h_S_ := by
  have h := aligned.tbinary_at V 23 _ _ _ _ rfl (by decide) (by decide) (by decide)
  unfold fin
  generalize after ops V = Z at h ⊢
  exact h

theorem st_call0_v10 (V : Valuation τ sig (Elt F)) : fin V main_call0_v10 = broadcastInDim S64 ![] bcast_S_S64 (fin V main_call0_v8) := by
  have h := aligned.tunary_at V 24 _ _ _ rfl (by decide) (by decide)
  unfold fin
  generalize after ops V = Z at h ⊢
  exact h

theorem st_call0_v11 (V : Valuation τ sig (Elt F)) : fin V main_call0_v11 = Host.divf (fin V main_call0_v9) (fin V main_call0_v10) := by
  have h := aligned.tbinary_at V 25 _ _ _ _ rfl (by decide) (by decide) (by decide)
  unfold fin
  generalize after ops V = Z at h ⊢
  exact h

theorem st_call0_cst_3 (V : Valuation τ sig (Elt F)) : fin V main_call0_cst_3 = constant S_ .f32 0x00000000#32 :=
  aligned.nullary_at V 26 rfl (by decide)

theorem st_call0_v12 (V : Valuation τ sig (Elt F)) : fin V main_call0_v12 = cmpf .ogt (fin V main_call0_v8) (fin V main_call0_cst_3) := by
  have h := aligned.tbinary_at V 27 _ _ _ _ rfl (by decide) (by decide) (by decide)
  unfold fin
  generalize after ops V = Z at h ⊢
  exact h

theorem st_call0_cst_4 (V : Valuation τ sig (Elt F)) : fin V main_call0_cst_4 = constant S_ .f32 0x7FC00000#32 :=
  aligned.nullary_at V 28 rfl (by decide)

theorem st_call0_call0_v0 (V : Valuation τ sig (Elt F)) : fin V main_call0_call0_v0 = id (fin V main_call0_cst_4) := by
  have h := aligned.tunary_at V 29 _ _ _ rfl (by decide) (by decide)
  unfold fin
  generalize after ops V = Z at h ⊢
  exact h

theorem st_call0_call0_v1 (V : Valuation τ sig (Elt F)) : fin V main_call0_call0_v1 = broadcastInDim S64 ![] bcast_S_S64 (fin V main_call0_call0_v0) := by
  have h := aligned.tunary_at V 30 _ _ _ rfl (by decide) (by decide)
  unfold fin
  generalize after ops V = Z at h ⊢
  exact h

theorem st_v7 (V : Valuation τ sig (Elt F)) : fin V main_v7 = select (broadcastInDim S64 ![] bcast_S_S64 (fin V main_call0_v12)) (fin V main_call0_v11) (fin V main_call0_call0_v1) := by
  have h := aligned.tternary_at V 31 _ _ _ _ _ rfl (by decide) (by decide) (by decide) (by decide)
  unfold fin
  generalize after ops V = Z at h ⊢
  exact h

theorem st_v8 (V : Valuation τ sig (Elt F)) : fin V main_v8 = broadcastInDim S1x64 ![1] bcast_S64_S1x64_1 (fin V main_v6) :=
  aligned.unary_at V 32 rfl (by decide) (by decide)

theorem st_v9 (V : Valuation τ sig (Elt F)) : fin V main_v9 = broadcastInDim S1000000x64 ![0, 1] bcast_S1x64_S1000000x64_0_1 (fin V main_v8) :=
  aligned.unary_at V 33 rfl (by decide) (by decide)

theorem st_v10 (V : Valuation τ sig (Elt F)) : fin V main_v10 = subf (fin V main_v3) (fin V main_v9) :=
  aligned.binary_at V 34 rfl (by decide) (by decide) (by decide)

theorem st_cst_1 (V : Valuation τ sig (Elt F)) : fin V main_cst_1 = constant S_ .f32 0x3727C5AC#32 :=
  aligned.nullary_at V 35 rfl (by decide)

theorem st_v11 (V : Valuation τ sig (Elt F)) : fin V main_v11 = broadcastInDim S64 ![] bcast_S_S64 (fin V main_cst_1) :=
  aligned.unary_at V 36 rfl (by decide) (by decide)

theorem st_v12 (V : Valuation τ sig (Elt F)) : fin V main_v12 = addf (fin V main_v7) (fin V main_v11) :=
  aligned.binary_at V 37 rfl (by decide) (by decide) (by decide)

theorem st_v13 (V : Valuation τ sig (Elt F)) : fin V main_v13 = Host.rsqrt (fin V main_v12) :=
  aligned.unary_at V 38 rfl (by decide) (by decide)

theorem st_v14 (V : Valuation τ sig (Elt F)) : fin V main_v14 = broadcastInDim S1x64 ![1] bcast_S64_S1x64_1 (fin V main_v13) :=
  aligned.unary_at V 39 rfl (by decide) (by decide)

theorem st_v15 (V : Valuation τ sig (Elt F)) : fin V main_v15 = broadcastInDim S1000000x64 ![0, 1] bcast_S1x64_S1000000x64_0_1 (fin V main_v14) :=
  aligned.unary_at V 40 rfl (by decide) (by decide)

theorem st_v16 (V : Valuation τ sig (Elt F)) : fin V main_v16 = mulf (fin V main_v10) (fin V main_v15) :=
  aligned.binary_at V 41 rfl (by decide) (by decide) (by decide)

theorem st_v17 (V : Valuation τ sig (Elt F)) : fin V main_v17 = broadcastInDim S1x64 ![1] bcast_S64_S1x64_1 (fin V main_arg5) :=
  aligned.unary_at V 42 rfl (by decide) (by decide)

theorem st_v18 (V : Valuation τ sig (Elt F)) : fin V main_v18 = broadcastInDim S1000000x64 ![0, 1] bcast_S1x64_S1000000x64_0_1 (fin V main_v17) :=
  aligned.unary_at V 43 rfl (by decide) (by decide)

theorem st_v19 (V : Valuation τ sig (Elt F)) : fin V main_v19 = mulf (fin V main_v16) (fin V main_v18) :=
  aligned.binary_at V 44 rfl (by decide) (by decide) (by decide)

theorem st_v20 (V : Valuation τ sig (Elt F)) : fin V main_v20 = broadcastInDim S1x64 ![1] bcast_S64_S1x64_1 (fin V main_arg6) :=
  aligned.unary_at V 45 rfl (by decide) (by decide)

theorem st_v21 (V : Valuation τ sig (Elt F)) : fin V main_v21 = broadcastInDim S1000000x64 ![0, 1] bcast_S1x64_S1000000x64_0_1 (fin V main_v20) :=
  aligned.unary_at V 46 rfl (by decide) (by decide)

theorem st_v22 (V : Valuation τ sig (Elt F)) : fin V main_v22 = addf (fin V main_v19) (fin V main_v21) :=
  aligned.binary_at V 47 rfl (by decide) (by decide) (by decide)

theorem st_call1_cst (V : Valuation τ sig (Elt F)) : fin V main_call1_cst = constant S_ .f32 0x00000000#32 :=
  aligned.nullary_at V 48 rfl (by decide)

theorem st_call1_v0 (V : Valuation τ sig (Elt F)) : fin V main_call1_v0 = broadcastInDim S1000000x64 ![] bcast_S_S1000000x64 (fin V main_call1_cst) := by
  have h := aligned.tunary_at V 49 _ _ _ rfl (by decide) (by decide)
  unfold fin
  generalize after ops V = Z at h ⊢
  exact h

theorem st_v23 (V : Valuation τ sig (Elt F)) : fin V main_v23 = maximumf (fin V main_v22) (fin V main_call1_v0) := by
  have h := aligned.tbinary_at V 50 _ _ _ _ rfl (by decide) (by decide) (by decide)
  unfold fin
  generalize after ops V = Z at h ⊢
  exact h

theorem st_cst_2 (V : Valuation τ sig (Elt F)) : fin V main_cst_2 = constant S_ .f32 0x00000000#32 :=
  aligned.nullary_at V 51 rfl (by decide)

theorem st_v24 (V : Valuation τ sig (Elt F)) : fin V main_v24 = broadcastInDim S50000x64 ![] bcast_S_S50000x64 (fin V main_cst_2) :=
  aligned.unary_at V 52 rfl (by decide) (by decide)

theorem st_v25 (V : Valuation τ sig (Elt F)) : fin V main_v25 = broadcastInDim S1000000x1 ![0] bcast_S1000000_S1000000x1_0 (fin V main_arg2) :=
  aligned.unary_at V 53 rfl (by decide) (by decide)

theorem st_v26 (V : Valuation τ sig (Elt F)) : fin V main_v26 = Host.scatterAdd scatter_S50000x64_S1000000x1_S1000000x64_1_0_0_1 (fin V main_v24) (fin V main_v25) (fin V main_v23) :=
  aligned.ternary_at V 54 rfl (by decide) (by decide) (by decide) (by decide)

theorem st_cst_3 (V : Valuation τ sig (Elt F)) : fin V main_cst_3 = constant S_ .f32 0x3F800000#32 :=
  aligned.nullary_at V 55 rfl (by decide)

theorem st_v27 (V : Valuation τ sig (Elt F)) : fin V main_v27 = broadcastInDim S1000000 ![] bcast_S_S1000000 (fin V main_cst_3) :=
  aligned.unary_at V 56 rfl (by decide) (by decide)

theorem st_cst_4 (V : Valuation τ sig (Elt F)) : fin V main_cst_4 = constant S_ .f32 0x00000000#32 :=
  aligned.nullary_at V 57 rfl (by decide)

theorem st_v28 (V : Valuation τ sig (Elt F)) : fin V main_v28 = broadcastInDim S50000 ![] bcast_S_S50000 (fin V main_cst_4) :=
  aligned.unary_at V 58 rfl (by decide) (by decide)

theorem st_v29 (V : Valuation τ sig (Elt F)) : fin V main_v29 = broadcastInDim S1000000x1 ![0] bcast_S1000000_S1000000x1_0 (fin V main_arg2) :=
  aligned.unary_at V 59 rfl (by decide) (by decide)

theorem st_v30 (V : Valuation τ sig (Elt F)) : fin V main_v30 = Host.scatterAdd scatter_S50000_S1000000x1_S1000000_n_0_0_1 (fin V main_v28) (fin V main_v29) (fin V main_v27) :=
  aligned.ternary_at V 60 rfl (by decide) (by decide) (by decide) (by decide)

theorem st_cst_5 (V : Valuation τ sig (Elt F)) : fin V main_cst_5 = constant S_ .f32 0x3F800000#32 :=
  aligned.nullary_at V 61 rfl (by decide)

theorem st_v31 (V : Valuation τ sig (Elt F)) : fin V main_v31 = broadcastInDim S50000 ![] bcast_S_S50000 (fin V main_cst_5) :=
  aligned.unary_at V 62 rfl (by decide) (by decide)

theorem st_v32 (V : Valuation τ sig (Elt F)) : fin V main_v32 = maximumf (fin V main_v30) (fin V main_v31) :=
  aligned.binary_at V 63 rfl (by decide) (by decide) (by decide)

theorem st_v33 (V : Valuation τ sig (Elt F)) : fin V main_v33 = broadcastInDim S50000x1 ![0] bcast_S50000_S50000x1_0 (fin V main_v32) :=
  aligned.unary_at V 64 rfl (by decide) (by decide)

theorem st_v34 (V : Valuation τ sig (Elt F)) : fin V main_v34 = broadcastInDim S50000x64 ![0, 1] bcast_S50000x1_S50000x64_0_1 (fin V main_v33) :=
  aligned.unary_at V 65 rfl (by decide) (by decide)

theorem st_v35 (V : Valuation τ sig (Elt F)) : fin V main_v35 = Host.divf (fin V main_v26) (fin V main_v34) :=
  aligned.binary_at V 66 rfl (by decide) (by decide) (by decide)

theorem st_c_6 (V : Valuation τ sig (Elt F)) : fin V main_c_6 = constantI S_ 32 0#32 :=
  aligned.nullary_at V 67 rfl (by decide)

theorem st_v36 (V : Valuation τ sig (Elt F)) : fin V main_v36 = broadcastInDim S1000000 ![] bcast_S_S1000000 (fin V main_c_6) :=
  aligned.unary_at V 68 rfl (by decide) (by decide)

theorem st_v37 (V : Valuation τ sig (Elt F)) : fin V main_v37 = cmpi .slt (fin V main_arg2) (fin V main_v36) :=
  aligned.binary_at V 69 rfl (by decide) (by decide) (by decide)

theorem st_c_7 (V : Valuation τ sig (Elt F)) : fin V main_c_7 = constantI S_ 32 50000#32 :=
  aligned.nullary_at V 70 rfl (by decide)

theorem st_v38 (V : Valuation τ sig (Elt F)) : fin V main_v38 = broadcastInDim S1000000 ![] bcast_S_S1000000 (fin V main_c_7) :=
  aligned.unary_at V 71 rfl (by decide) (by decide)

theorem st_v39 (V : Valuation τ sig (Elt F)) : fin V main_v39 = addi (fin V main_arg2) (fin V main_v38) :=
  aligned.binary_at V 72 rfl (by decide) (by decide) (by decide)

theorem st_v40 (V : Valuation τ sig (Elt F)) : fin V main_v40 = select (fin V main_v37) (fin V main_v39) (fin V main_arg2) :=
  aligned.ternary_at V 73 rfl (by decide) (by decide) (by decide) (by decide)

theorem st_v41 (V : Valuation τ sig (Elt F)) : fin V main_v41 = broadcastInDim S1000000x1 ![0] bcast_S1000000_S1000000x1_0 (fin V main_v40) :=
  aligned.unary_at V 74 rfl (by decide) (by decide)

theorem st_v42 (V : Valuation τ sig (Elt F)) : fin V main_v42 = Host.gather gather_S50000x64_S1000000x1_S1000000x64_1_0_n_n_0_1_164 (fin V main_v35) (fin V main_v41) :=
  aligned.binary_at V 75 rfl (by decide) (by decide) (by decide)

theorem st_v43 (V : Valuation τ sig (Elt F)) : fin V main_v43 = concatenate S1000000x128 1 [⟨S1000000x64, (fin V main_v23)⟩, ⟨S1000000x64, (fin V main_v42)⟩] concatenates_S1000000x64_S1000000x64_S1000000x128_d1 :=
  aligned.binary_at V 76 rfl (by decide) (by decide) (by decide)

end Cert.ReferenceIdeal.RefValue

end
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.RefValue.lean ====
/-
  The reference program's result, read down to the common specification.

  The run gives every buffer's final contents as its operation's function of its operands' final contents. Here those
  equations are read at an index, one operation at a time: the matrix product as a sum over the contracted axis, a
  per-column value laid out as a row and against every row as that column's value, a sum down the rows as the initial
  value plus the sum over the rows, quotients, differences, products and maxima entry by entry. The variance function's
  guard compares 1 000 000 − 0 with 0, which holds, so its selection takes the quotient by 1 000 000. The rectified
  values are then the specification's centred arrangement, entry by entry; the pooled table is the same composition of
  operations applied to them, kept as one opaque function; and the result is the two halves joined along the columns.
-/
import proofs.«114109_j88794153877507_1_alg».proof.Proof.RefRun
import proofs.«114109_j88794153877507_1_alg».proof.Proof.Spec
import proofs.«114109_j88794153877507_1_alg».proof.Proof.LibMatmul
import proofs.«114109_j88794153877507_1_alg».proof.Proof.LibHostRows
import proofs.«114109_j88794153877507_1_alg».proof.Proof.LibColumnsConcat
import proofs.«114109_j88794153877507_1_alg».proof.Proof.LibIdealBits
import Idealize.ShloMosaic.Lib.IdealHost

open scoped BigOperators

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.StableHlo.AlignedLines Idealize.ShloMosaic.ValueIdx

/-! ## The pooled table, as one function -/

/-- The pooled table gathered back per row: the two segment sums, the maximum with one, the quotient, the
    negative-index wrap and the gather, composed exactly as the program applies them, as one direct term. -/
def tail (hf : (⟨S1000000x64, .f32⟩ : BufTy).Contents (Elt Ideal)) (idx : (⟨S1000000, .i32⟩ : BufTy).Contents (Elt Ideal)) :
    (⟨S1000000x64, .f32⟩ : BufTy).Contents (Elt Ideal) :=
  Host.gather gather_S50000x64_S1000000x1_S1000000x64_1_0_n_n_0_1_164 (Host.divf (F := Ideal) (Host.scatterAdd (F := Ideal) scatter_S50000x64_S1000000x1_S1000000x64_1_0_0_1 (broadcastInDim S50000x64 ![] bcast_S_S50000x64 (constant (F := Ideal) S_ .f32 0x00000000#32)) (broadcastInDim S1000000x1 ![0] bcast_S1000000_S1000000x1_0 idx) hf) (broadcastInDim S50000x64 ![0, 1] bcast_S50000x1_S50000x64_0_1 (broadcastInDim S50000x1 ![0] bcast_S50000_S50000x1_0 (maximumf (F := Ideal) (Host.scatterAdd (F := Ideal) scatter_S50000_S1000000x1_S1000000_n_0_0_1 (broadcastInDim S50000 ![] bcast_S_S50000 (constant (F := Ideal) S_ .f32 0x00000000#32)) (broadcastInDim S1000000x1 ![0] bcast_S1000000_S1000000x1_0 idx) (broadcastInDim S1000000 ![] bcast_S_S1000000 (constant (F := Ideal) S_ .f32 0x3F800000#32))) (broadcastInDim S50000 ![] bcast_S_S50000 (constant (F := Ideal) S_ .f32 0x3F800000#32)))))) (broadcastInDim S1000000x1 ![0] bcast_S1000000_S1000000x1_0 (select (cmpi .slt idx (broadcastInDim S1000000 ![] bcast_S_S1000000 (constantI S_ 32 0#32))) (addi idx (broadcastInDim S1000000 ![] bcast_S_S1000000 (constantI S_ 32 50000#32))) idx))

/-! ## Constants -/

/-- The pattern of 1.0e6 is the real 1 000 000. -/
theorem cN_eq : Cert.Spec.cN = ((1000000 : ℝ) : EReal) := by
  unfold Cert.Spec.cN
  simp [Ideal.ofBits, Ideal.ieee, -EReal.coe_mul]; norm_num

theorem cN_pos : (0 : EReal) < Cert.Spec.cN := by
  rw [cN_eq]; exact EReal.coe_pos.mpr (by norm_num)

/-! ## General readings at these shapes -/

/-- The index a sum down the rows reads at row `k` of column `q`. -/
theorem lift_col (h : Shape.Reduces S1000000x64 [0] S64) (q : Fin 64) (k : Fin 1000000) : h.lift (ix1 q) k = ix2 k q := by
  funext ax
  apply Fin.ext
  match ax with
  | ⟨0, _⟩ => rfl
  | ⟨1, _⟩ => rfl

/-- A sum down the rows, at column `q`: the initial value plus the sum over the rows. -/
theorem colsum (x : FVec Ideal S1000000x64 .f32) (init : FVec Ideal S_ .f32) (q : Fin 64) :
    Host.reduceAdd x init reducesTo_S1000000x64_S64_d0 h_S_ (ix1 q) = init ix0 + ∑ p : Fin 1000000, x (ix2 p q) := by
  have hR : Shape.Reduces S1000000x64 [0] S64 := by decide
  rw [hostReduceAdd_apply, Ideal.hostReduceAdd_single _ hR,
    show init (Shape.Idx.first h_S_) = init ix0 from congrArg init (eq_ix0 _)]
  exact congrArg (fun s => init ix0 + s) (Finset.sum_congr rfl fun p _ => congrArg x (lift_col hR q p))

/-- The host's reciprocal square root, entry by entry. -/
theorem hostRsqrt_apply {s : Shape} (x : FVec Ideal s .f32) (i : s.Idx) : Host.rsqrt x i = Ideal.rsqrt (x i) := rfl

/-- The two halves joined along the columns are the specification's join. -/
theorem joined_eq (a b : FVec Ideal S1000000x64 .f32) (h) :
    concatenate S1000000x128 1 [⟨S1000000x64, a⟩, ⟨S1000000x64, b⟩] h = Cert.Spec.joined a b := by
  funext i
  unfold Cert.Spec.joined
  split
  · rename_i hlt
    conv_lhs => rw [eq_ix2 i]
    exact concatenate_cols_left a b h (i 0) (i 1) hlt
  · rename_i hge
    conv_lhs => rw [eq_ix2 i]
    exact concatenate_cols_right a b h (i 0) (i 1) (by omega) _

section Read

variable (V : Valuation τ sig (Elt Ideal))

/-- Equality of two entries read as extended reals. -/
local infix:50 " =ₑ " => @Eq EReal
/-- Equality of two comparison bits. -/
local infix:50 " =₁ " => @Eq (BitVec 1)

/-- The input rows, the weights and the bias, from the argument arrays. -/
abbrev xOf : Fin 1000000 → Fin 192 → EReal := fun p j => V (main_arg0 : DevRef τ sig) (ix2 p j)
abbrev wOf : Fin 192 → Fin 64 → EReal := fun j q => V (main_arg3 : DevRef τ sig) (ix2 j q)
abbrev cOf : Fin 64 → EReal := fun q => V (main_arg4 : DevRef τ sig) (ix1 q)
/-- The linear layer's values. -/
abbrev hOf : Fin 1000000 → Fin 64 → EReal := Cert.Spec.lin (xOf V) (wOf V) (cOf V)
/-- The affine map's scale, from its argument array. -/
abbrev gOf : Fin 64 → EReal := fun q => V (main_arg5 : DevRef τ sig) (ix1 q)
/-- The affine map's shift, from its argument array. -/
abbrev bOf : Fin 64 → EReal := fun q => V (main_arg6 : DevRef τ sig) (ix1 q)

/-! ### The linear layer -/

theorem r_v0 (p : Fin 1000000) (q : Fin 64) :
    fin V main_v0 (ix2 p q) =ₑ ∑ j : Fin 192, xOf V p j * wOf V j q := by
  rw [st_v0, fin_arg0, fin_arg3]
  exact dotGeneral_ix2 dot_S1000000x192_S192x64_S1000000x64_1_0_0_1_n_n rfl rfl rfl rfl rfl rfl none .single _ _ p q

theorem r_v2 (p : Fin 1000000) (q : Fin 64) : fin V main_v2 (ix2 p q) =ₑ cOf V q := by
  rw [st_v2, st_v1, fin_arg4]
  exact broadcastInDim_row_apply _ _ _ p q

theorem r_v3 (p : Fin 1000000) (q : Fin 64) : fin V main_v3 (ix2 p q) =ₑ hOf V p q := by
  rw [st_v3, addf_apply, r_v0, r_v2]
  rfl

/-! ### The column means -/

theorem r_cst : fin V main_cst ix0 =ₑ 0 := by rw [st_cst, constant_apply, Ideal.ofBits_zero_f32]

theorem r_v4 (q : Fin 64) : fin V main_v4 (ix1 q) =ₑ Cert.Spec.s1 (hOf V) q := by
  rw [st_v4, colsum, r_cst, zero_add]
  exact Finset.sum_congr rfl fun p _ => r_v3 V p q

theorem r_v5 (i : S64.Idx) : fin V main_v5 i =ₑ Cert.Spec.cN := by
  rw [st_v5, broadcastInDim_scalar_apply, st_cst_0, constant_apply, Cert.Spec.cN]

theorem r_v6 (q : Fin 64) : fin V main_v6 (ix1 q) =ₑ Cert.Spec.mean (hOf V) q := by
  rw [st_v6, hostDivf_apply, r_v4, r_v5]
  rfl

/-! ### The variance function -/

theorem r_call0_cst : fin V main_call0_cst ix0 =ₑ 0 := by rw [st_call0_cst, constant_apply, Ideal.ofBits_zero_f32]

theorem r_call0_v0 (q : Fin 64) : fin V main_call0_v0 (ix1 q) =ₑ Cert.Spec.s1 (hOf V) q := by
  rw [st_call0_v0, colsum, r_call0_cst, zero_add]
  exact Finset.sum_congr rfl fun p _ => r_v3 V p q

theorem r_call0_v2 (i : S1x64.Idx) : fin V main_call0_v2 i =ₑ Cert.Spec.cN := by
  rw [st_call0_v2, broadcastInDim_scalar_apply, st_call0_cst_0, constant_apply, Cert.Spec.cN]

theorem r_call0_v3 (u : Fin 1) (q : Fin 64) : fin V main_call0_v3 (ix2 u q) =ₑ Cert.Spec.mean (hOf V) q := by
  rw [st_call0_v3, hostDivf_apply, r_call0_v2, st_call0_v1, broadcastInDim_b_1b_apply, r_call0_v0]
  rfl

theorem r_call0_v4 (p : Fin 1000000) (q : Fin 64) : fin V main_call0_v4 (ix2 p q) =ₑ Cert.Spec.mean (hOf V) q := by
  rw [st_call0_v4, broadcastInDim_1b_ab_apply, r_call0_v3]

theorem r_call0_v5 (p : Fin 1000000) (q : Fin 64) :
    fin V main_call0_v5 (ix2 p q) =ₑ hOf V p q - Cert.Spec.mean (hOf V) q := by
  rw [st_call0_v5, subf_apply, r_v3, r_call0_v4]

theorem r_call0_v6 (p : Fin 1000000) (q : Fin 64) :
    fin V main_call0_v6 (ix2 p q)
      =ₑ (hOf V p q - Cert.Spec.mean (hOf V) q) * (hOf V p q - Cert.Spec.mean (hOf V) q) := by
  rw [st_call0_v6, mulf_apply, r_call0_v5]

/-- The integer zero converted to a float is zero. -/
theorem r_call0_v7 : fin V main_call0_v7 ix0 =ₑ 0 := by
  rw [st_call0_v7, sitofp_apply, st_c, Cert.LibIdealBits.sitofp_ideal]
  show (((((0#32 : BitVec 32).toInt : ℤ) : ℝ)) : EReal) = 0
  rw [show (0#32 : BitVec 32).toInt = 0 by decide, Int.cast_zero, EReal.coe_zero]

/-- The guard's left side, 1 000 000 − 0, is 1 000 000. -/
theorem r_call0_v8 : fin V main_call0_v8 ix0 =ₑ Cert.Spec.cN := by
  rw [st_call0_v8, subf_apply, r_call0_v7, sub_zero, st_call0_cst_1, constant_apply, Cert.Spec.cN]

theorem r_call0_cst_2 : fin V main_call0_cst_2 ix0 =ₑ 0 := by rw [st_call0_cst_2, constant_apply, Ideal.ofBits_zero_f32]

theorem r_call0_v9 (q : Fin 64) :
    fin V main_call0_v9 (ix1 q)
      =ₑ ∑ p : Fin 1000000, (hOf V p q - Cert.Spec.mean (hOf V) q) * (hOf V p q - Cert.Spec.mean (hOf V) q) := by
  rw [st_call0_v9, colsum, r_call0_cst_2, zero_add]
  exact Finset.sum_congr rfl fun p _ => r_call0_v6 V p q

theorem r_call0_v10 (i : S64.Idx) : fin V main_call0_v10 i =ₑ Cert.Spec.cN := by
  rw [st_call0_v10, broadcastInDim_scalar_apply, r_call0_v8]

theorem r_call0_v11 (q : Fin 64) : fin V main_call0_v11 (ix1 q) =ₑ Cert.Spec.varC (hOf V) q := by
  rw [st_call0_v11, hostDivf_apply, r_call0_v9, r_call0_v10]
  rfl

theorem r_call0_cst_3 : fin V main_call0_cst_3 ix0 =ₑ 0 := by rw [st_call0_cst_3, constant_apply, Ideal.ofBits_zero_f32]

/-- The guard holds: 1 000 000 − 0 is greater than 0. -/
theorem r_call0_v12 : fin V main_call0_v12 ix0 =₁ 1#1 := by
  rw [st_call0_v12, cmpf_apply, r_call0_v8, r_call0_cst_3]
  show Ideal.cmp .ogt Cert.Spec.cN 0 = 1#1
  unfold Ideal.cmp
  simp only [decide_eq_true cN_pos]
  rfl

/-- So the selection takes the quotient: the variance is the mean of the squared centred entries. -/
theorem r_v7 (q : Fin 64) : fin V main_v7 (ix1 q) =ₑ Cert.Spec.varC (hOf V) q := by
  rw [st_v7, select_apply, broadcastInDim_scalar_apply, r_call0_v12, select_one, r_call0_v11]

/-! ### The normalisation, the affine map and the rectifier -/

theorem r_v9 (p : Fin 1000000) (q : Fin 64) : fin V main_v9 (ix2 p q) =ₑ Cert.Spec.mean (hOf V) q := by
  rw [st_v9, st_v8, broadcastInDim_row_apply, r_v6]

theorem r_v10 (p : Fin 1000000) (q : Fin 64) : fin V main_v10 (ix2 p q) =ₑ hOf V p q - Cert.Spec.mean (hOf V) q := by
  rw [st_v10, subf_apply, r_v3, r_v9]

theorem r_v11 (i : S64.Idx) : fin V main_v11 i =ₑ Cert.Spec.cEps := by
  rw [st_v11, broadcastInDim_scalar_apply, st_cst_1, constant_apply, Cert.Spec.cEps]

theorem r_v12 (q : Fin 64) : fin V main_v12 (ix1 q) =ₑ Cert.Spec.varC (hOf V) q + Cert.Spec.cEps := by
  rw [st_v12, addf_apply, r_v7, r_v11]

theorem r_v13 (q : Fin 64) : fin V main_v13 (ix1 q) =ₑ Ideal.rsqrt (Cert.Spec.varC (hOf V) q + Cert.Spec.cEps) := by
  rw [st_v13, hostRsqrt_apply, r_v12]

theorem r_v15 (p : Fin 1000000) (q : Fin 64) :
    fin V main_v15 (ix2 p q) =ₑ Ideal.rsqrt (Cert.Spec.varC (hOf V) q + Cert.Spec.cEps) := by
  rw [st_v15, st_v14, broadcastInDim_row_apply, r_v13]

theorem r_v18 (p : Fin 1000000) (q : Fin 64) : fin V main_v18 (ix2 p q) =ₑ gOf V q := by
  rw [st_v18, st_v17, broadcastInDim_row_apply, fin_arg5]

theorem r_v21 (p : Fin 1000000) (q : Fin 64) : fin V main_v21 (ix2 p q) =ₑ bOf V q := by
  rw [st_v21, st_v20, broadcastInDim_row_apply, fin_arg6]

theorem r_v22 (p : Fin 1000000) (q : Fin 64) :
    fin V main_v22 (ix2 p q)
      =ₑ (hOf V p q - Cert.Spec.mean (hOf V) q) * Ideal.rsqrt (Cert.Spec.varC (hOf V) q + Cert.Spec.cEps) * gOf V q + bOf V q := by
  rw [st_v22, addf_apply, st_v19, mulf_apply, st_v16, mulf_apply, r_v10, r_v15, r_v18, r_v21]

theorem r_call1_v0 (i : S1000000x64.Idx) : fin V main_call1_v0 i =ₑ 0 := by
  rw [st_call1_v0, broadcastInDim_scalar_apply, st_call1_cst, constant_apply, Ideal.ofBits_zero_f32]

/-- The rectified values are the specification's centred arrangement, entry by entry. -/
theorem r_v23 (p : Fin 1000000) (q : Fin 64) :
    fin V main_v23 (ix2 p q) =ₑ Cert.Spec.bnC (hOf V) (gOf V) (bOf V) p q := by
  rw [st_v23, maximumf_apply, r_v22, r_call1_v0]
  rfl

theorem a_v23 : @Eq (FVec Ideal S1000000x64 .f32) (fin V main_v23) (Cert.Spec.arr (Cert.Spec.bnC (hOf V) (gOf V) (bOf V))) := by
  funext i
  rw [eq_ix2 i]
  exact r_v23 V _ _

/-! ### The pooled table and the join -/

theorem r_v42 : fin V main_v42 = tail (fin V main_v23) (V (main_arg2 : DevRef τ sig)) := by
  unfold tail
  rw [st_v42, st_v35, st_v26, st_v24, st_cst_2, st_v25, st_v34, st_v33, st_v32, st_v30, st_v28, st_cst_4, st_v29, st_v27,
    st_cst_3, st_v31, st_cst_5, st_v41, st_v40, st_v37, st_v36, st_c_6, st_v39, st_v38, st_c_7, fin_arg2]

/-- The result: the rectified values and the pooled table's rows, joined along the columns. -/
theorem value :
    fin V main_v43
      = Cert.Spec.joined (Cert.Spec.arr (Cert.Spec.bnC (hOf V) (gOf V) (bOf V)))
          (tail (Cert.Spec.arr (Cert.Spec.bnC (hOf V) (gOf V) (bOf V))) (V (main_arg2 : DevRef τ sig))) := by
  rw [st_v43, joined_eq, r_v42, a_v23]

end Read

/-! ## The run, read -/

/-- On every device, from any memory with zero counters: every weakly fair execution of the reference terminates with
    its result at the specification's join of the centred arrangement and the pooled table over it, and its seven
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
        = Cert.Spec.joined
            (Cert.Spec.arr (Cert.Spec.bnC
              (Cert.Spec.lin (fun p j => m ((c.tc : Thread nD τ).loc main_arg0) (ValueIdx.ix2 p j))
                (fun j q => m ((c.tc : Thread nD τ).loc main_arg3) (ValueIdx.ix2 j q))
                (fun q => m ((c.tc : Thread nD τ).loc main_arg4) (ValueIdx.ix1 q)))
              (fun q => m ((c.tc : Thread nD τ).loc main_arg5) (ValueIdx.ix1 q))
              (fun q => m ((c.tc : Thread nD τ).loc main_arg6) (ValueIdx.ix1 q))))
            (tail
              (Cert.Spec.arr (Cert.Spec.bnC
                (Cert.Spec.lin (fun p j => m ((c.tc : Thread nD τ).loc main_arg0) (ValueIdx.ix2 p j))
                  (fun j q => m ((c.tc : Thread nD τ).loc main_arg3) (ValueIdx.ix2 j q))
                  (fun q => m ((c.tc : Thread nD τ).loc main_arg4) (ValueIdx.ix1 q)))
                (fun q => m ((c.tc : Thread nD τ).loc main_arg5) (ValueIdx.ix1 q))
                (fun q => m ((c.tc : Thread nD τ).loc main_arg6) (ValueIdx.ix1 q))))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v43).trans (value (launchContents m c)),
        (h c main_arg0).trans (fin_arg0 _), (h c main_arg1).trans (fin_arg1 _), (h c main_arg2).trans (fin_arg2 _),
        (h c main_arg3).trans (fin_arg3 _), (h c main_arg4).trans (fin_arg4 _), (h c main_arg5).trans (fin_arg5 _),
        (h c main_arg6).trans (fin_arg6 _)⟩)
    (run_main m ρ)

end Cert.ReferenceIdeal.RefValue

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibGuardedNorm.lean ====
/-
  Extended-real facts for an inner product normalized by a guarded column norm, and for clipped values.

  * A cosine: the kernel scales the whole inner product by the reciprocal of the guarded column norm,
    (Σ_r f_r · k_r) · (1 / m); the reference divides every weight by the norm first, Σ_r f_r · (k_r / m). For a
    positive REAL m the two agree whatever the terms are: dividing by m is multiplying by the nonnegative real 1/m,
    and a nonnegative real factor distributes over any finite sum of extended reals. The guarded norm
    m = max(√(Σ k²), ε) is a positive real as soon as the column's weights are real and ε is a positive real.
  * A logit: c · S − o · (g · S) = (c − o · g) · S for real c, o, g, S; a value clipped between two reals is real.
-/
import Mathlib.Data.EReal.Operations
import Idealize.ShloMosaic.PureOps.Ideal
import proofs.«114109_j88794153877507_1_alg».proof.Proof.LibERealSum

noncomputable section

namespace Cert.LibGuardedNorm

open Idealize.ShloMosaic

/-- A float pattern whose exponent field is not all ones denotes a real number. -/
theorem ofBits_f32_real (w : BitVec 32) (h : (w.extractLsb' 23 8).toNat ≠ 255) : ∃ r : ℝ, Ideal.ofBits .f32 w = (r : EReal) := by
  show ∃ r : ℝ, Ideal.ieee 8 23 w = (r : EReal)
  unfold Ideal.ieee
  dsimp only
  rw [if_neg (by simpa using h)]
  split <;> exact ⟨_, rfl⟩

/-- A normal float pattern with a clear sign bit denotes a positive real number. -/
theorem ofBits_f32_pos (w : BitVec 32) (hs : w.extractLsb' 31 1 = 0#1) (he : (w.extractLsb' 23 8).toNat ≠ 255)
    (h0 : (w.extractLsb' 23 8).toNat ≠ 0) : ∃ r : ℝ, 0 < r ∧ Ideal.ofBits .f32 w = (r : EReal) := by
  show ∃ r : ℝ, 0 < r ∧ Ideal.ieee 8 23 w = (r : EReal)
  unfold Ideal.ieee
  dsimp only
  rw [if_neg (by simpa using he), if_neg h0]
  refine ⟨_, ?_, rfl⟩
  have hb : (w.extractLsb' (8 + 23) 1 == 1#1) = false := by
    rw [show 8 + 23 = 31 from rfl, hs]; decide
  rw [hb]
  simp only [Bool.false_eq_true, if_false, one_mul]
  positivity

/-- The embedding of the reals keeps maxima and minima. -/
theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- A finite sum of squares of real numbers is a nonnegative real number. -/
theorem sumsq_real {ι : Type*} (s : Finset ι) (k : ι → EReal) (hk : ∀ r ∈ s, ∃ x : ℝ, k r = (x : EReal)) :
    ∃ q : ℝ, 0 ≤ q ∧ ∑ r ∈ s, k r * k r = (q : EReal) := by
  classical
  induction s using Finset.induction_on with
  | empty => exact ⟨0, le_rfl, by simp⟩
  | insert a s ha ih =>
    obtain ⟨q, hq, e⟩ := ih fun r hr => hk r (Finset.mem_insert_of_mem hr)
    obtain ⟨x, hx⟩ := hk a (Finset.mem_insert_self a s)
    refine ⟨x * x + q, add_nonneg (mul_self_nonneg x) hq, ?_⟩
    rw [Finset.sum_insert ha, e, hx, ← EReal.coe_mul, ← EReal.coe_add]

/-- The square root of a nonnegative real, guarded from below by a positive real, is a positive real. -/
theorem guard_pos (S eps : EReal) (hS : ∃ q : ℝ, 0 ≤ q ∧ S = (q : EReal)) (he : ∃ e : ℝ, 0 < e ∧ eps = (e : EReal)) :
    ∃ m : ℝ, 0 < m ∧ max (Ideal.sqrt S) eps = (m : EReal) := by
  obtain ⟨q, hq, rfl⟩ := hS
  obtain ⟨e, he, rfl⟩ := he
  refine ⟨max (Real.sqrt q) e, lt_max_of_lt_right he, ?_⟩
  have hsq : Ideal.sqrt (q : EReal) = ((Real.sqrt q : ℝ) : EReal) := by
    show (if q < 0 then (⊥ : EReal) else ((Real.sqrt q : ℝ) : EReal)) = _
    rw [if_neg (not_lt.mpr hq)]
  rw [hsq, coe_max']

/-- Scaling an inner product by the reciprocal of a positive real is dividing every second factor by it. -/
theorem scaled_dot {ι : Type*} (s : Finset ι) (f k : ι → EReal) (one m : EReal) (hone : one = 1)
    (hm : ∃ r : ℝ, 0 < r ∧ m = (r : EReal)) :
    (∑ r ∈ s, f r * k r) * Ideal.div one m = ∑ r ∈ s, f r * Ideal.div (k r) m := by
  obtain ⟨r, hr, rfl⟩ := hm
  rw [hone, Ideal.div_coe hr.ne', one_mul, ERealSum.sum_mul_assoc s f k ⟨1 / r, by positivity, rfl⟩]
  exact Finset.sum_congr rfl fun j _ => by rw [Ideal.div_coe hr.ne']

/-- A value clipped between two real numbers is a real number. -/
theorem clip_real (l h : ℝ) (x : EReal) : ∃ c : ℝ, min (h : EReal) (max (l : EReal) x) = (c : EReal) := by
  induction x using EReal.rec with
  | bot => exact ⟨min h l, by rw [max_eq_left bot_le, coe_min']⟩
  | top => exact ⟨h, by rw [max_eq_right le_top, min_eq_left le_top]⟩
  | coe y => exact ⟨min h (max l y), by rw [coe_min', coe_max']⟩

/-- The two spellings of a margin logit agree on real numbers. -/
theorem logit_law (c g o S : EReal) (hc : ∃ x : ℝ, c = (x : EReal)) (hg : ∃ x : ℝ, g = (x : EReal))
    (ho : ∃ x : ℝ, o = (x : EReal)) (hS : ∃ x : ℝ, S = (x : EReal)) :
    c * S - o * (g * S) = (c - o * g) * S := by
  obtain ⟨c, rfl⟩ := hc
  obtain ⟨g, rfl⟩ := hg
  obtain ⟨o, rfl⟩ := ho
  obtain ⟨S, rfl⟩ := hS
  simp only [← EReal.coe_mul, ← EReal.coe_sub]
  exact congrArg _ (by ring)

end Cert.LibGuardedNorm

end
-- ==== Proof.Law.lean ====
/-
  The real-number law of the batch normalisation, and the two float constants.

  Among real entries the two arrangements of the normalisation in the common specification agree. Every quantity is
  the cast of a real expression: the column sums are casts of real sums, the division by the row count N = 1 000 000
  is the multiplication by the real 1/N, so the mean and both variances are casts of real numbers. Over the reals

      (1/N)·Σₚ (hₚ − μ)²  =  (1/N)·Σₚ hₚ²  −  μ²        with μ = (1/N)·Σₚ hₚ  and  N the number of terms,

  by expanding the square. The centred form shows the variance is nonnegative, the guard ε is a positive real, so
  var + ε is a positive real and its inverse square root is the real (√(var + ε))⁻¹, the SAME number r in both
  arrangements. What is left is  h·(γ·r) + (β − μ·(γ·r)) = (h − μ)·r·γ + β  in the field of reals.
-/
import proofs.«114109_j88794153877507_1_alg».proof.Proof.Spec
import proofs.«114109_j88794153877507_1_alg».proof.Proof.LibRealEntries
import proofs.«114109_j88794153877507_1_alg».proof.Proof.LibGuardedNorm

noncomputable section

namespace Cert.Spec

open Idealize.ShloMosaic

/-! ### The two constants -/

/-- The pattern 0x49742400 is a normal number with exponent field 146 and significand 2²³ + 7611392 = 16 000 000:
    16 000 000 · 2^(146 − 127 − 23) = 16 000 000 / 16 = 1 000 000. -/
theorem cN_eq : cN = ((1000000 : ℝ) : EReal) := by
  unfold cN
  simp [Ideal.ofBits, Ideal.ieee, -EReal.coe_mul]
  norm_num

/-- The pattern 0x3727C5AC has a clear sign bit and exponent field 110, neither all zeros nor all ones: a positive
    normal number. -/
theorem cEps_pos : ∃ e : ℝ, 0 < e ∧ cEps = (e : EReal) :=
  Cert.LibGuardedNorm.ofBits_f32_pos 0x3727C5AC#32 (by decide) (by decide) (by decide)

/-! ### The linear layer of real entries is real -/

theorem lin_real {x : Fin 1000000 → Fin 192 → EReal} {W : Fin 192 → Fin 64 → EReal} {b : Fin 64 → EReal}
    (hx : ∀ p j, ∃ r : ℝ, x p j = (r : EReal)) (hW : ∀ j q, ∃ r : ℝ, W j q = (r : EReal))
    (hb : ∀ q, ∃ r : ℝ, b q = (r : EReal)) : ∀ p q, ∃ r : ℝ, lin x W b p q = (r : EReal) := by
  intro p q
  unfold lin
  exact Cert.LibRealEntries.IsReal.add
    (Cert.LibRealEntries.IsReal.sum _ _ fun j _ => Cert.LibRealEntries.IsReal.mul (hx p j) (hW j q)) (hb q)

/-! ### The variance identity over the reals -/

/-- Mean of squares minus squared mean is the mean of the squared centred terms, for any finite family of N ≠ 0
    real numbers. -/
theorem var_identity {ι : Type*} [Fintype ι] (f : ι → ℝ) (N : ℝ) (hN : N ≠ 0) (hcard : (Fintype.card ι : ℝ) = N) :
    (∑ i, (f i - (∑ i, f i) * (1 / N)) * (f i - (∑ i, f i) * (1 / N))) * (1 / N)
      = (∑ i, f i * f i) * (1 / N) - ((∑ i, f i) * (1 / N)) * ((∑ i, f i) * (1 / N)) := by
  have h1 : ∀ μ : ℝ, ∑ i, (f i - μ) * (f i - μ) = (∑ i, f i * f i) - 2 * μ * (∑ i, f i) + N * (μ * μ) := by
    intro μ
    have h2 : ∀ i, (f i - μ) * (f i - μ) = f i * f i - 2 * μ * f i + μ * μ := fun i => by ring
    simp only [h2]
    rw [Finset.sum_add_distrib, Finset.sum_sub_distrib, ← Finset.mul_sum, Finset.sum_const, Finset.card_univ,
      nsmul_eq_mul, hcard]
  rw [h1]
  field_simp
  ring

/-! ### Every quantity of the specification, on a matrix of casts, is a cast -/

/-- The real mean of column q. -/
def meanR (f : Fin 1000000 → Fin 64 → ℝ) (q : Fin 64) : ℝ := (∑ p, f p q) * (1 / 1000000)

/-- The real variance of column q, centred form. -/
def varR (f : Fin 1000000 → Fin 64 → ℝ) (q : Fin 64) : ℝ :=
  (∑ p, (f p q - meanR f q) * (f p q - meanR f q)) * (1 / 1000000)

theorem coe_sum_univ {ι : Type*} [Fintype ι] (f : ι → ℝ) : ∑ i, ((f i : ℝ) : EReal) = ((∑ i, f i : ℝ) : EReal) :=
  (Cert.LibRealEntries.coe_sum Finset.univ f).symm

theorem div_cN (x : EReal) : Ideal.div x cN = x * ((1 / 1000000 : ℝ) : EReal) := by
  rw [cN_eq, Ideal.div_coe (by norm_num)]

theorem mean_coe (f : Fin 1000000 → Fin 64 → ℝ) (q : Fin 64) :
    mean (fun p q => ((f p q : ℝ) : EReal)) q = ((meanR f q : ℝ) : EReal) := by
  unfold mean s1 meanR
  rw [div_cN, coe_sum_univ, ← EReal.coe_mul]

theorem varC_coe (f : Fin 1000000 → Fin 64 → ℝ) (q : Fin 64) :
    varC (fun p q => ((f p q : ℝ) : EReal)) q = ((varR f q : ℝ) : EReal) := by
  unfold varC varR
  rw [mean_coe, div_cN]
  simp only [← EReal.coe_sub, ← EReal.coe_mul]
  rw [coe_sum_univ, ← EReal.coe_mul]

theorem varS_coe (f : Fin 1000000 → Fin 64 → ℝ) (q : Fin 64) :
    varS (fun p q => ((f p q : ℝ) : EReal)) q
      = (((∑ p, f p q * f p q) * (1 / 1000000) - meanR f q * meanR f q : ℝ) : EReal) := by
  unfold varS s2
  rw [mean_coe, div_cN]
  simp only [← EReal.coe_mul]
  rw [coe_sum_univ, ← EReal.coe_mul, ← EReal.coe_sub]

/-- The two variances are the same real number. -/
theorem varR_eq (f : Fin 1000000 → Fin 64 → ℝ) (q : Fin 64) :
    varR f q = (∑ p, f p q * f p q) * (1 / 1000000) - meanR f q * meanR f q := by
  unfold varR meanR
  exact var_identity (fun p => f p q) 1000000 (by norm_num) (by simp)

theorem varR_nonneg (f : Fin 1000000 → Fin 64 → ℝ) (q : Fin 64) : 0 ≤ varR f q :=
  mul_nonneg (Finset.sum_nonneg fun p _ => mul_self_nonneg _) (by norm_num)

/-- The inverse square root of a positive real is the real (√x)⁻¹. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-! ### The law -/

/-- On real entries the variance through the two sums is the centred variance. -/
theorem varS_eq_varC {h : Fin 1000000 → Fin 64 → EReal} (hh : ∀ p q, ∃ r : ℝ, h p q = (r : EReal)) (q : Fin 64) :
    varS h q = varC h q := by
  choose f hf using hh
  obtain rfl : h = fun p q => ((f p q : ℝ) : EReal) := funext fun p => funext fun q => hf p q
  rw [varS_coe, varC_coe, varR_eq]

/-- On real entries the two arrangements of the normalisation agree. -/
theorem bn_eq {h : Fin 1000000 → Fin 64 → EReal} {γ β : Fin 64 → EReal}
    (hh : ∀ p q, ∃ r : ℝ, h p q = (r : EReal)) (hγ : ∀ q, ∃ r : ℝ, γ q = (r : EReal))
    (hβ : ∀ q, ∃ r : ℝ, β q = (r : EReal)) : bnS h γ β = bnC h γ β := by
  choose f hf using hh
  choose g hg using hγ
  choose b hb using hβ
  obtain rfl : h = fun p q => ((f p q : ℝ) : EReal) := funext fun p => funext fun q => hf p q
  obtain ⟨e, he, hE⟩ := cEps_pos
  funext p q
  have hvS : varS (fun p q => ((f p q : ℝ) : EReal)) q = ((varR f q : ℝ) : EReal) := by rw [varS_coe, varR_eq]
  have hpos : 0 < varR f q + e := add_pos_of_nonneg_of_pos (varR_nonneg f q) he
  unfold bnS bnC shiftS scaleS
  rw [hvS, varC_coe, mean_coe, hE, ← EReal.coe_add, rsqrt_coe_pos hpos, hg q, hb q]
  simp only [← EReal.coe_mul, ← EReal.coe_add, ← EReal.coe_sub]
  exact congrArg (fun t : ℝ => max (t : EReal) 0) (by ring)

end Cert.Spec

end
-- ==== Proof.Finite.lean ====
/-
  The precondition read back: every float input is a real number.

  The precondition is the conjunction, over the five float arguments x, of  all(|x| < +∞).  The conjunction of
  one-bit words is 1 only when every conjunct is 1; a reduction by "and" that comes out 1 met a 1 at every index;
  so at every index i the comparison  |x i| < +∞  holds, where |x| = max x (−x) on the extended reals and the
  constant is the pattern of +∞. An extended real whose absolute value is below +∞ is neither +∞ nor −∞ (at
  either, max x (−x) = +∞): it is a real number.
-/
import proofs.«114109_j88794153877507_1_alg».proof.Defs
import proofs.«114109_j88794153877507_1_alg».proof.Proof.Gen.Pre_finite_inputs
import Idealize.ShloMosaic.Lib.ReduceAll
import Idealize.ShloMosaic.Lib.ValueIdx

noncomputable section

namespace Cert.Finite

open Idealize.ShloMosaic Idealize.SL.Sem

/-- A shape of rank zero has one index. -/
instance : Subsingleton Cert.Pre_finite_inputs.S_.Idx := ⟨fun a b => funext fun d => d.elim0⟩

/-- The pattern 0x7F800000 (exponent all ones, significand zero, sign clear) denotes +∞. -/
theorem ofBits_inf : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < (⊤ : EReal)) : ∃ r : ℝ, x = (r : EReal) := by
  induction x using EReal.rec with
  | bot => exact absurd h (by simp)
  | top => exact absurd h (by simp)
  | coe y => exact ⟨y, rfl⟩

/-- One element of the compared array: |x i| < +∞ as a one-bit word that is 1 says x i is real. -/
theorem elem_real {s : Shape} (x : FVec Ideal s .f32) (dims : Fin Cert.Pre_finite_inputs.S_.rank → Fin s.rank)
    (hb : Cert.Pre_finite_inputs.S_.BroadcastsInDim s dims) (i : s.Idx)
    (h : cmpf .olt (Host.absf x) (broadcastInDim s dims hb (constant Cert.Pre_finite_inputs.S_ .f32 0x7F800000#32)) i = 1#1) :
    ∃ r : ℝ, x i = (r : EReal) := by
  have h' : Ideal.cmp .olt (max (x i) (-(x i))) (Ideal.ofBits .f32 0x7F800000#32) = 1#1 := h
  rw [ofBits_inf] at h'
  refine real_of_abs_lt_top (x i) ?_
  by_contra hn
  have : Ideal.cmp .olt (max (x i) (-(x i))) (⊤ : EReal) = 0#1 := by simp [Ideal.cmp, hn]
  rw [this] at h'
  exact absurd h' (by decide)

/-- all(|x| < +∞) that is 1 says every entry of x is real. -/
theorem all_real {s : Shape} {axes : List (Fin s.rank)} (x : FVec Ideal s .f32)
    (dims : Fin Cert.Pre_finite_inputs.S_.rank → Fin s.rank) (hb : Cert.Pre_finite_inputs.S_.BroadcastsInDim s dims)
    (init : IVec Cert.Pre_finite_inputs.S_ 1)
    (hr : s.ReducesTo axes Cert.Pre_finite_inputs.S_) (hu : 0 < Cert.Pre_finite_inputs.S_.numel)
    (e : Host.reduce IntOp.andi
        (cmpf .olt (Host.absf x) (broadcastInDim s dims hb (constant Cert.Pre_finite_inputs.S_ .f32 0x7F800000#32)))
        init hr hu ValueIdx.ix0 = 1#1) :
    ∀ i, ∃ r : ℝ, x i = (r : EReal) :=
  fun i => elem_real x dims hb i (Host.reduce_andi_all _ init hr hu _ e i)

/-- The precondition gives: every entry of each of the five float arguments is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have e := congrFun (h c) ValueIdx.ix0
  dsimp only [Cert.Pre_finite_inputs.fn, Cert.Pre_finite_inputs.fn_part1] at e
  simp only [andi, IntOp.andi_eq_one] at e
  obtain ⟨⟨⟨⟨e0, e3⟩, e4⟩, e5⟩, e6⟩ := e
  exact ⟨all_real _ _ _ _ _ _ e0, all_real _ _ _ _ _ _ e3, all_real _ _ _ _ _ _ e4, all_real _ _ _ _ _ _ e5,
    all_real _ _ _ _ _ _ e6⟩

/-- The same, with every index written by its coordinates. -/
theorem real_of_pre_coords [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ (p : Fin 1000000) (j : Fin 192), ∃ r : ℝ,
        m ((c.tc : Thread Cert.KernelIdeal.nD Cert.KernelIdeal.τ).loc Cert.KernelIdeal.main_arg0) (ValueIdx.ix2 p j) = (r : EReal))
    ∧ (∀ (j : Fin 192) (q : Fin 64), ∃ r : ℝ,
        m ((c.tc : Thread Cert.KernelIdeal.nD Cert.KernelIdeal.τ).loc Cert.KernelIdeal.main_arg3) (ValueIdx.ix2 j q) = (r : EReal))
    ∧ (∀ q : Fin 64, ∃ r : ℝ,
        m ((c.tc : Thread Cert.KernelIdeal.nD Cert.KernelIdeal.τ).loc Cert.KernelIdeal.main_arg4) (ValueIdx.ix1 q) = (r : EReal))
    ∧ (∀ q : Fin 64, ∃ r : ℝ,
        m ((c.tc : Thread Cert.KernelIdeal.nD Cert.KernelIdeal.τ).loc Cert.KernelIdeal.main_arg5) (ValueIdx.ix1 q) = (r : EReal))
    ∧ (∀ q : Fin 64, ∃ r : ℝ,
        m ((c.tc : Thread Cert.KernelIdeal.nD Cert.KernelIdeal.τ).loc Cert.KernelIdeal.main_arg6) (ValueIdx.ix1 q) = (r : EReal)) := by
  obtain ⟨h0, h3, h4, h5, h6⟩ := real_of_pre m h c
  exact ⟨fun p j => h0 _, fun j q => h3 _, fun q => h4 _, fun q => h5 _, fun q => h6 _⟩

end Cert.Finite

end
-- ==== Proof.lean ====
/-
  The certificate of the layer  Linear → BatchNorm (batch statistics) → ReLU → segment-mean pool → concatenate,
  computed by three kernels tiled over the rows against its plain reference, over the extended reals.

  Frames: the two kernel programs' frames are the generated whole frame certificates; the reference's frame is its run
  with the result dropped. The idealization rewrote nothing, so `preserves` is `True`.

  Algebraic: the kernel program ends with the two halves joined, the first half the normalised, rectified values in
  the arrangement through the column sums and sums of squares (mean of squares minus squared mean, folded into an
  affine map), the second half the pooling of the first; the reference ends with the same joined halves in the
  arrangement that centres first. Both pool by the same operations, carried as one function of the first half. On
  finite inputs every entry of the linear layer is a real number, the two variances agree
  (E[h²] − E[h]² = E[(h − E h)²]), var + ε is a positive real, and the affine map distributes: the two first halves are
  the same array, hence the two results.
-/
import proofs.«114109_j88794153877507_1_alg».proof.Defs
import proofs.«114109_j88794153877507_1_alg».proof.Proof.Gen.Kernel
import proofs.«114109_j88794153877507_1_alg».proof.Proof.Gen.Kernel.Skeleton
import proofs.«114109_j88794153877507_1_alg».proof.Proof.Gen.Kernel.Launch
import proofs.«114109_j88794153877507_1_alg».proof.Proof.Gen.Kernel.Points
import proofs.«114109_j88794153877507_1_alg».proof.Proof.Gen.Kernel.Frame
import proofs.«114109_j88794153877507_1_alg».proof.Proof.Gen.KernelIdeal
import proofs.«114109_j88794153877507_1_alg».proof.Proof.Gen.KernelIdeal.Skeleton
import proofs.«114109_j88794153877507_1_alg».proof.Proof.Gen.KernelIdeal.Launch
import proofs.«114109_j88794153877507_1_alg».proof.Proof.Gen.KernelIdeal.Points
import proofs.«114109_j88794153877507_1_alg».proof.Proof.Gen.KernelIdeal.Frame
import proofs.«114109_j88794153877507_1_alg».proof.Proof.Gen.ReferenceIdeal
import proofs.«114109_j88794153877507_1_alg».proof.Proof.Gen.Pre_finite_inputs
import proofs.«114109_j88794153877507_1_alg».proof.Proof.KValue
import proofs.«114109_j88794153877507_1_alg».proof.Proof.RefValue
import proofs.«114109_j88794153877507_1_alg».proof.Proof.Law
import proofs.«114109_j88794153877507_1_alg».proof.Proof.Finite
import Idealize.ShloMosaic.Adequacy
import Idealize.ShloMosaic.Init

noncomputable section

namespace Cert.Proof

open Idealize.ShloMosaic Idealize.SL.Sem

/-- The two programs pool by the same operations: one function of the rectified values and the segment numbers. -/
theorem tail_eq (hf : FVec Ideal Cert.KernelIdeal.S1000000x64 .f32) (idx : IVec Cert.KernelIdeal.S1000000 32) :
    Cert.ReferenceIdeal.RefValue.tail hf idx = Cert.KernelIdeal.KValue.tail hf idx := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From agreeing finite arguments both programs end at the same joined array. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6⟩ := hagree c
  obtain ⟨r0, r3, r4, r5, r6⟩ := Cert.Finite.real_of_pre_coords m hpre c
  rw [a0, a2, a3, a4, a5, a6, tail_eq]
  have e : Cert.Spec.bnC (Cert.KernelIdeal.KValue.hK m c) (Cert.KernelIdeal.KValue.gK m c) (Cert.KernelIdeal.KValue.betaK m c)
      = Cert.Spec.bnS (Cert.KernelIdeal.KValue.hK m c) (Cert.KernelIdeal.KValue.gK m c) (Cert.KernelIdeal.KValue.betaK m c) :=
    (Cert.Spec.bn_eq (Cert.Spec.lin_real r0 r3 r4) r5 r6).symm
  show Cert.Spec.joined (Cert.Spec.arr (Cert.Spec.bnC (Cert.KernelIdeal.KValue.hK m c) (Cert.KernelIdeal.KValue.gK m c) (Cert.KernelIdeal.KValue.betaK m c)))
      (Cert.KernelIdeal.KValue.tail (Cert.Spec.arr (Cert.Spec.bnC (Cert.KernelIdeal.KValue.hK m c) (Cert.KernelIdeal.KValue.gK m c) (Cert.KernelIdeal.KValue.betaK m c))) _)
    = Cert.Spec.joined (Cert.KernelIdeal.KValue.hfK m c) (Cert.KernelIdeal.KValue.tail (Cert.KernelIdeal.KValue.hfK m c) _)
  rw [e]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
